-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S4 : Shape := ⟨1, ![4]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg8 : FVec F S64 .f32) (main_arg9 : FVec F S4 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S4 .f32 := Host.absf main_arg9
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg5 : FVec F S3x64x64 .f32) (main_arg6 : FVec F S3x64 .f32) (main_arg7 : FVec F S64x64 .f32) (main_arg8 : FVec F S64 .f32) (main_arg9 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S800000 .f32) (main_arg3 : FVec F S256x64 .f32) (main_arg4 : FVec F S64 .f32) (main_arg5 : FVec F S3x64x64 .f32) (main_arg6 : FVec F S3x64 .f32) (main_arg7 : FVec F S64x64 .f32) (main_arg8 : FVec F S64 .f32) (main_arg9 : FVec F S4 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x64 .f32 := Host.absf main_arg3
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S4 : Shape := ⟨1, ![4]⟩
abbrev S1x800000 : Shape := ⟨2, ![1, 800000]⟩
abbrev S1 : Shape := ⟨1, ![1]⟩
abbrev S1x1 : Shape := ⟨2, ![1, 1]⟩
abbrev S1x64 : Shape := ⟨2, ![1, 64]⟩
abbrev S50000x64 : Shape := ⟨2, ![50000, 64]⟩
abbrev S5000x256 : Shape := ⟨2, ![5000, 256]⟩
abbrev S5000x64 : Shape := ⟨2, ![5000, 64]⟩
abbrev S1x64x64 : Shape := ⟨3, ![1, 64, 64]⟩
abbrev S_ : Shape := ⟨0, ![]⟩
abbrev S800000x1 : Shape := ⟨2, ![800000, 1]⟩
abbrev S800000x64 : Shape := ⟨2, ![800000, 64]⟩

abbrev nBuf : Space → Nat
  | .hbm => 99
  | .vmem => 60
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S4, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S1, .f32⟩
  | .hbm, ⟨15, _⟩ => ⟨S1x1, .f32⟩
  | .hbm, ⟨16, _⟩ => ⟨S1x64, .f32⟩
  | .hbm, ⟨17, _⟩ => ⟨S50000x64, .f32⟩
  | .hbm, ⟨18, _⟩ => ⟨S50000x64, .f32⟩
  | .hbm, ⟨19, _⟩ => ⟨S1x64x64, .f32⟩
  | .hbm, ⟨20, _⟩ => ⟨S64x64, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S50000x64, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S800000x1, .f32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S1, .f32⟩
  | .hbm, ⟨42, _⟩ => ⟨S1x1, .f32⟩
  | .hbm, ⟨43, _⟩ => ⟨S50000x64, .f32⟩
  | .hbm, ⟨44, _⟩ => ⟨S50000x64, .f32⟩
  | .hbm, ⟨45, _⟩ => ⟨S1x64x64, .f32⟩
  | .hbm, ⟨46, _⟩ => ⟨S64x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S800000x1, .f32⟩
  | .hbm, ⟨61, _⟩ => ⟨S800000x64, .f32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S1, .f32⟩
  | .hbm, ⟨68, _⟩ => ⟨S1x1, .f32⟩
  | .hbm, ⟨69, _⟩ => ⟨S50000x64, .f32⟩
  | .hbm, ⟨70, _⟩ => ⟨S50000x64, .f32⟩
  | .hbm, ⟨71, _⟩ => ⟨S1x64x64, .f32⟩
  | .hbm, ⟨72, _⟩ => ⟨S64x64, .f32⟩
  | .hbm, ⟨73, _⟩ => ⟨S1x64, .f32⟩
  | .hbm, ⟨74, _⟩ => ⟨S64, .f32⟩
  | .hbm, ⟨75, _⟩ => ⟨S1x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S800000x1, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S1, .f32⟩
  | .hbm, ⟨94, _⟩ => ⟨S1x1, .f32⟩
  | .hbm, ⟨95, _⟩ => ⟨S50000x64, .f32⟩
  | .hbm, ⟨96, _⟩ => ⟨S50000x64, .f32⟩
  | .hbm, ⟨97, _⟩ => ⟨S1x64, .f32⟩
  | .hbm, ⟨98, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S1x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x1, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S1x1, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S64x64, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S1x1, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S64x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_1 : Ref sig .tc := ⟨.hbm, 51, rfl⟩
abbrev main_v36 : Ref sig .tc := ⟨.hbm, 52, rfl⟩
abbrev main_v37 : Ref sig .tc := ⟨.hbm, 53, rfl⟩
abbrev main_c_2 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51_0 : Ref sig .tc := ⟨.hbm, 69, rfl⟩
abbrev main_v51_1 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_4 : Ref sig .tc := ⟨.hbm, 77, rfl⟩
abbrev main_v58 : Ref sig .tc := ⟨.hbm, 78, rfl⟩
abbrev main_v59 : Ref sig .tc := ⟨.hbm, 79, rfl⟩
abbrev main_c_5 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73_0 : Ref sig .tc := ⟨.hbm, 95, rfl⟩
abbrev main_v73_1 : Ref sig .tc := ⟨.hbm, 96, rfl⟩
abbrev main_v74 : Ref sig .tc := ⟨.hbm, 97, rfl⟩
abbrev main_v75 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg1_1 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg3_1 : Ref sig .tc := ⟨.vmem, 51, rfl⟩
abbrev cc6_stg4_0 : Ref sig .tc := ⟨.vmem, 52, rfl⟩
abbrev cc6_stg4_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem3_1 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem1_1 : DmaSem sig := 48
abbrev cc6_sem2_0 : DmaSem sig := 49
abbrev cc6_sem3_0 : DmaSem sig := 50
abbrev cc6_sem3_1 : DmaSem sig := 51
abbrev cc6_sem4_0 : DmaSem sig := 52
abbrev cc6_sem4_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S4_S1_0 : S4.Slices ![0] S1
  shapeCasts_S1_S1x1 : S1.ShapeCasts S1x1
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x64 : S1x1.Broadcasts S5000x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S4_S1_1 : S4.Slices ![1] S1
  slices_S3x64x64_S1x64x64_1_0_0 : S3x64x64.Slices ![1, 0, 0] S1x64x64
  slices_S3x64_S1x64_1_0 : S3x64.Slices ![1, 0] S1x64
  slices_S4_S1_2 : S4.Slices ![2] S1
  slices_S3x64x64_S1x64x64_2_0_0 : S3x64x64.Slices ![2, 0, 0] S1x64x64
  slices_S3x64_S1x64_2_0 : S3x64.Slices ![2, 0] S1x64
  slices_S4_S1_3 : S4.Slices ![3] S1
  dot_S5000x256_S256x64_S5000x64_1_0_0_1_n_n_wf : DotDims.WF S5000x256 S256x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x64.size a ≤ S50000x64.size a
  hwx6_4 : ∀ i : grid6.Coords, EltTy.bits .f32 = 32 ∨ (Rect.block (s := S50000x64) S5000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7_1) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v29_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v35) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v48) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29_1) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v51_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v51_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v70) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v51_1) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v72) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v73_0) S5000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v73_1) S5000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v73_1) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v74) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v75) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x64 : Shape := ⟨2, ![256, 64]⟩
abbrev S64 : Shape := ⟨1, ![64]⟩
abbrev S3x64x64 : Shape := ⟨3, ![3, 64, 64]⟩
abbrev S3x64 : Shape := ⟨2, ![3, 64]⟩
abbrev S64x64 : Shape := ⟨2, ![64, 64]⟩
abbrev S4 : Shape := ⟨1, ![4]⟩
abbrev S1x800000 : Shape := ⟨2, ![1, 800000]⟩
abbrev S50000x64 : Shape := ⟨2, ![50000, 64]⟩
abbrev S1x64 : Shape := ⟨2, ![1, 64]⟩
abbrev S1 : Shape := ⟨1, ![1]⟩
abbrev S_ : Shape := ⟨0, ![]⟩
abbrev S1x64x64 : Shape := ⟨3, ![1, 64, 64]⟩
abbrev S800000x1 : Shape := ⟨2, ![800000, 1]⟩
abbrev S800000x64 : Shape := ⟨2, ![800000, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S64x64, .f32⟩
  | .hbm, ⟨8, _⟩ => ⟨S64, .f32⟩
  | .hbm, ⟨9, _⟩ => ⟨S4, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x64, .f32⟩
  | .hbm, ⟨15, _⟩ => ⟨S1x64, .f32⟩
  | .hbm, ⟨16, _⟩ => ⟨S50000x64, .f32⟩
  | .hbm, ⟨17, _⟩ => ⟨S50000x64, .f32⟩
  | .hbm, ⟨18, _⟩ => ⟨S1, .f32⟩
  | .hbm, ⟨19, _⟩ => ⟨S_, .f32⟩
  | .hbm, ⟨20, _⟩ => ⟨S50000x64, .f32⟩
  | .hbm, ⟨21, _⟩ => ⟨S50000x64, .f32⟩
  | .hbm, ⟨22, _⟩ => ⟨S1x64x64, .f32⟩
  | .hbm, ⟨23, _⟩ => ⟨S64x64, .f32⟩
  | .hbm, ⟨24, _⟩ => ⟨S50000x64, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S50000x64, .f32⟩
  | .hbm, ⟨29, _⟩ => ⟨S50000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .f32⟩
  | .hbm, ⟨39, _⟩ => ⟨S800000x1, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S_, .f32⟩
  | .hbm, ⟨47, _⟩ => ⟨S50000x64, .f32⟩
  | .hbm, ⟨48, _⟩ => ⟨S50000x64, .f32⟩
  | .hbm, ⟨49, _⟩ => ⟨S1, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x64x64, .f32⟩
  | .hbm, ⟨55, _⟩ => ⟨S64x64, .f32⟩
  | .hbm, ⟨56, _⟩ => ⟨S50000x64, .f32⟩
  | .hbm, ⟨57, _⟩ => ⟨S1x64, .f32⟩
  | .hbm, ⟨58, _⟩ => ⟨S64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x1, .f32⟩
  | .hbm, ⟨72, _⟩ => ⟨S800000x64, .f32⟩
  | .hbm, ⟨73, _⟩ => ⟨S800000x64, .f32⟩
  | .hbm, ⟨74, _⟩ => ⟨S_, .f32⟩
  | .hbm, ⟨75, _⟩ => ⟨S50000x64, .f32⟩
  | .hbm, ⟨76, _⟩ => ⟨S800000x1, .i32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S1, .f32⟩
  | .hbm, ⟨82, _⟩ => ⟨S_, .f32⟩
  | .hbm, ⟨83, _⟩ => ⟨S50000x64, .f32⟩
  | .hbm, ⟨84, _⟩ => ⟨S50000x64, .f32⟩
  | .hbm, ⟨85, _⟩ => ⟨S50000x64, .f32⟩
  | .hbm, ⟨86, _⟩ => ⟨S1x64x64, .f32⟩
  | .hbm, ⟨87, _⟩ => ⟨S64x64, .f32⟩
  | .hbm, ⟨88, _⟩ => ⟨S50000x64, .f32⟩
  | .hbm, ⟨89, _⟩ => ⟨S1x64, .f32⟩
  | .hbm, ⟨90, _⟩ => ⟨S64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000x64, .f32⟩
  | .hbm, ⟨103, _⟩ => ⟨S800000x1, .f32⟩
  | .hbm, ⟨104, _⟩ => ⟨S800000x64, .f32⟩
  | .hbm, ⟨105, _⟩ => ⟨S800000x64, .f32⟩
  | .hbm, ⟨106, _⟩ => ⟨S_, .f32⟩
  | .hbm, ⟨107, _⟩ => ⟨S50000x64, .f32⟩
  | .hbm, ⟨108, _⟩ => ⟨S800000x1, .i32⟩
  | .hbm, ⟨109, _⟩ => ⟨S50000x64, .f32⟩
  | .hbm, ⟨110, _⟩ => ⟨S_, .f32⟩
  | .hbm, ⟨111, _⟩ => ⟨S50000x64, .f32⟩
  | .hbm, ⟨112, _⟩ => ⟨S50000x64, .f32⟩
  | .hbm, ⟨113, _⟩ => ⟨S1, .f32⟩
  | .hbm, ⟨114, _⟩ => ⟨S_, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_1 : Ref sig .tc := ⟨.hbm, 62, rfl⟩
abbrev main_v47 : Ref sig .tc := ⟨.hbm, 63, rfl⟩
abbrev main_v48 : Ref sig .tc := ⟨.hbm, 64, rfl⟩
abbrev main_c_2 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_3 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call1_cst : Ref sig .tc := ⟨.hbm, 78, rfl⟩
abbrev main_call1_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_c_4 : Ref sig .tc := ⟨.hbm, 94, rfl⟩
abbrev main_v74 : Ref sig .tc := ⟨.hbm, 95, rfl⟩
abbrev main_v75 : Ref sig .tc := ⟨.hbm, 96, rfl⟩
abbrev main_c_5 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_cst_6 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_call2_cst : Ref sig .tc := ⟨.hbm, 110, rfl⟩
abbrev main_call2_v0 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S4_S1_0 : S4.Slices ![0] S1
  shapeCasts_S1_S_ : S1.ShapeCasts S_
  bcast_S_S50000x64 : S_.BroadcastsInDim S50000x64 (![] : Fin 0 → Fin S50000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  slices_S4_S1_1 : S4.Slices ![1] S1
  slices_S3x64x64_S1x64x64_1_0_0 : S3x64x64.Slices ![1, 0, 0] S1x64x64
  slices_S3x64_S1x64_1_0 : S3x64.Slices ![1, 0] S1x64
  slices_S4_S1_2 : S4.Slices ![2] S1
  slices_S3x64x64_S1x64x64_2_0_0 : S3x64x64.Slices ![2, 0, 0] S1x64x64
  slices_S3x64_S1x64_2_0 : S3x64.Slices ![2, 0] S1x64
  slices_S4_S1_3 : S4.Slices ![3] S1
  dot_S50000x256_S256x64_S50000x64_1_0_0_1_n_n_wf : DotDims.WF S50000x256 S256x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Keep.lean ====
/-
  Buffers that the later segments of @main read and no earlier segment writes.

  @main is sixteen segments — eight stretches of host operations alternating with eight regions — and `W k` is the
  contents of the buffers after the first k of them.  Six argument arrays (the edge weights, the layer weights and
  biases, the read-out weights and bias, the four coefficients) and the two rows of the edge table re-cast as vectors
  are read by segments far from where they are made; no segment before their last use writes them, so at every
  boundary they hold what they held after the first stretch (`at_k`), and the six arguments hold there what they held
  at launch.
-/
import proofs.«162737_j31078383353907_1_alg».proof.Proof.Gen.KernelIdeal.Frame

set_option maxRecDepth 16384

noncomputable section

namespace Cert.Keep

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer alone when none of its operations writes it: each operation's written
    buffer is compared with the buffer in turn. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The buffers followed through the fold: arguments 2, 5, 6, 7, 8, 9 and the two rows of the edge table as vectors. -/
def Tracked (b : Ref sig .tc) : Prop :=
  b = main_arg2 ∨ b = main_arg5 ∨ b = main_arg6 ∨ b = main_arg7 ∨ b = main_arg8 ∨ b = main_arg9 ∨ b = main_v1 ∨ b = main_v3

theorem tr_arg2 : Tracked main_arg2 := Or.inl rfl
theorem tr_arg5 : Tracked main_arg5 := Or.inr (Or.inl rfl)
theorem tr_arg6 : Tracked main_arg6 := Or.inr (Or.inr (Or.inl rfl))
theorem tr_arg7 : Tracked main_arg7 := Or.inr (Or.inr (Or.inr (Or.inl rfl)))
theorem tr_arg8 : Tracked main_arg8 := Or.inr (Or.inr (Or.inr (Or.inr (Or.inl rfl))))
theorem tr_arg9 : Tracked main_arg9 := Or.inr (Or.inr (Or.inr (Or.inr (Or.inr (Or.inl rfl)))))
theorem tr_v1 : Tracked main_v1 := Or.inr (Or.inr (Or.inr (Or.inr (Or.inr (Or.inr (Or.inl rfl))))))
theorem tr_v3 : Tracked main_v3 := Or.inr (Or.inr (Or.inr (Or.inr (Or.inr (Or.inr (Or.inr rfl))))))

/-- Region 0 writes none of the tracked buffers. -/
theorem step2 (c : Dev nD) (b : Ref sig .tc) (hb : Tracked b) :
    W2 m ρ c (Proc.devRef .tc b) = W1 m ρ c (Proc.devRef .tc b) := by
  rcases hb with rfl | rfl | rfl | rfl | rfl | rfl | rfl | rfl <;> exact W2_of_ne m ρ c _ (by decide)

/-- The host operations before region 1 write none of the tracked buffers. -/
theorem step3 (c : Dev nD) (b : Ref sig .tc) (hb : Tracked b) :
    W3 m ρ c (Proc.devRef .tc b) = W2 m ρ c (Proc.devRef .tc b) := by
  rcases hb with rfl | rfl | rfl | rfl | rfl | rfl | rfl | rfl <;> host_keeps hostOps1

/-- Region 1 writes none of the tracked buffers. -/
theorem step4 (c : Dev nD) (b : Ref sig .tc) (hb : Tracked b) :
    W4 m ρ c (Proc.devRef .tc b) = W3 m ρ c (Proc.devRef .tc b) := by
  rcases hb with rfl | rfl | rfl | rfl | rfl | rfl | rfl | rfl <;> exact W4_of_ne m ρ c _ (by decide)

/-- The host operations before region 2 write none of the tracked buffers. -/
theorem step5 (c : Dev nD) (b : Ref sig .tc) (hb : Tracked b) :
    W5 m ρ c (Proc.devRef .tc b) = W4 m ρ c (Proc.devRef .tc b) := by
  rcases hb with rfl | rfl | rfl | rfl | rfl | rfl | rfl | rfl <;> host_keeps hostOps2

/-- Region 2 writes none of the tracked buffers. -/
theorem step6 (c : Dev nD) (b : Ref sig .tc) (hb : Tracked b) :
    W6 m ρ c (Proc.devRef .tc b) = W5 m ρ c (Proc.devRef .tc b) := by
  rcases hb with rfl | rfl | rfl | rfl | rfl | rfl | rfl | rfl <;> exact W6_of_ne m ρ c _ (by decide)

/-- The host operations before region 3 write none of the tracked buffers. -/
theorem step7 (c : Dev nD) (b : Ref sig .tc) (hb : Tracked b) :
    W7 m ρ c (Proc.devRef .tc b) = W6 m ρ c (Proc.devRef .tc b) := by
  rcases hb with rfl | rfl | rfl | rfl | rfl | rfl | rfl | rfl <;> host_keeps hostOps3

/-- Region 3 writes none of the tracked buffers. -/
theorem step8 (c : Dev nD) (b : Ref sig .tc) (hb : Tracked b) :
    W8 m ρ c (Proc.devRef .tc b) = W7 m ρ c (Proc.devRef .tc b) := by
  rcases hb with rfl | rfl | rfl | rfl | rfl | rfl | rfl | rfl <;> exact W8_of_ne m ρ c _ (by decide)

/-- The host operations before region 4 write none of the tracked buffers. -/
theorem step9 (c : Dev nD) (b : Ref sig .tc) (hb : Tracked b) :
    W9 m ρ c (Proc.devRef .tc b) = W8 m ρ c (Proc.devRef .tc b) := by
  rcases hb with rfl | rfl | rfl | rfl | rfl | rfl | rfl | rfl <;> host_keeps hostOps4

/-- Region 4 writes none of the tracked buffers. -/
theorem step10 (c : Dev nD) (b : Ref sig .tc) (hb : Tracked b) :
    W10 m ρ c (Proc.devRef .tc b) = W9 m ρ c (Proc.devRef .tc b) := by
  rcases hb with rfl | rfl | rfl | rfl | rfl | rfl | rfl | rfl <;> exact W10_of_ne m ρ c _ (by decide)

/-- The host operations before region 5 write none of the tracked buffers. -/
theorem step11 (c : Dev nD) (b : Ref sig .tc) (hb : Tracked b) :
    W11 m ρ c (Proc.devRef .tc b) = W10 m ρ c (Proc.devRef .tc b) := by
  rcases hb with rfl | rfl | rfl | rfl | rfl | rfl | rfl | rfl <;> host_keeps hostOps5

/-- Region 5 writes none of the tracked buffers. -/
theorem step12 (c : Dev nD) (b : Ref sig .tc) (hb : Tracked b) :
    W12 m ρ c (Proc.devRef .tc b) = W11 m ρ c (Proc.devRef .tc b) := by
  rcases hb with rfl | rfl | rfl | rfl | rfl | rfl | rfl | rfl <;> exact W12_of_ne m ρ c _ (by decide)

/-- The host operations before region 6 write none of the tracked buffers. -/
theorem step13 (c : Dev nD) (b : Ref sig .tc) (hb : Tracked b) :
    W13 m ρ c (Proc.devRef .tc b) = W12 m ρ c (Proc.devRef .tc b) := by
  rcases hb with rfl | rfl | rfl | rfl | rfl | rfl | rfl | rfl <;> host_keeps hostOps6

/-- Region 6 writes none of the tracked buffers. -/
theorem step14 (c : Dev nD) (b : Ref sig .tc) (hb : Tracked b) :
    W14 m ρ c (Proc.devRef .tc b) = W13 m ρ c (Proc.devRef .tc b) := by
  rcases hb with rfl | rfl | rfl | rfl | rfl | rfl | rfl | rfl <;> exact W14_of_ne m ρ c _ (by decide)

/-- The host operations before region 7 write none of the tracked buffers. -/
theorem step15 (c : Dev nD) (b : Ref sig .tc) (hb : Tracked b) :
    W15 m ρ c (Proc.devRef .tc b) = W14 m ρ c (Proc.devRef .tc b) := by
  rcases hb with rfl | rfl | rfl | rfl | rfl | rfl | rfl | rfl <;> host_keeps hostOps7

/-! At every boundary a tracked buffer holds what it held after the first stretch. -/
theorem at2 (c : Dev nD) (b : Ref sig .tc) (hb : Tracked b) : W2 m ρ c (Proc.devRef .tc b) = W1 m ρ c (Proc.devRef .tc b) := step2 m ρ c b hb
theorem at3 (c : Dev nD) (b : Ref sig .tc) (hb : Tracked b) : W3 m ρ c (Proc.devRef .tc b) = W1 m ρ c (Proc.devRef .tc b) := (step3 m ρ c b hb).trans (at2 m ρ c b hb)
theorem at4 (c : Dev nD) (b : Ref sig .tc) (hb : Tracked b) : W4 m ρ c (Proc.devRef .tc b) = W1 m ρ c (Proc.devRef .tc b) := (step4 m ρ c b hb).trans (at3 m ρ c b hb)
theorem at5 (c : Dev nD) (b : Ref sig .tc) (hb : Tracked b) : W5 m ρ c (Proc.devRef .tc b) = W1 m ρ c (Proc.devRef .tc b) := (step5 m ρ c b hb).trans (at4 m ρ c b hb)
theorem at6 (c : Dev nD) (b : Ref sig .tc) (hb : Tracked b) : W6 m ρ c (Proc.devRef .tc b) = W1 m ρ c (Proc.devRef .tc b) := (step6 m ρ c b hb).trans (at5 m ρ c b hb)
theorem at7 (c : Dev nD) (b : Ref sig .tc) (hb : Tracked b) : W7 m ρ c (Proc.devRef .tc b) = W1 m ρ c (Proc.devRef .tc b) := (step7 m ρ c b hb).trans (at6 m ρ c b hb)
theorem at8 (c : Dev nD) (b : Ref sig .tc) (hb : Tracked b) : W8 m ρ c (Proc.devRef .tc b) = W1 m ρ c (Proc.devRef .tc b) := (step8 m ρ c b hb).trans (at7 m ρ c b hb)
theorem at9 (c : Dev nD) (b : Ref sig .tc) (hb : Tracked b) : W9 m ρ c (Proc.devRef .tc b) = W1 m ρ c (Proc.devRef .tc b) := (step9 m ρ c b hb).trans (at8 m ρ c b hb)
theorem at10 (c : Dev nD) (b : Ref sig .tc) (hb : Tracked b) : W10 m ρ c (Proc.devRef .tc b) = W1 m ρ c (Proc.devRef .tc b) := (step10 m ρ c b hb).trans (at9 m ρ c b hb)
theorem at11 (c : Dev nD) (b : Ref sig .tc) (hb : Tracked b) : W11 m ρ c (Proc.devRef .tc b) = W1 m ρ c (Proc.devRef .tc b) := (step11 m ρ c b hb).trans (at10 m ρ c b hb)
theorem at12 (c : Dev nD) (b : Ref sig .tc) (hb : Tracked b) : W12 m ρ c (Proc.devRef .tc b) = W1 m ρ c (Proc.devRef .tc b) := (step12 m ρ c b hb).trans (at11 m ρ c b hb)
theorem at13 (c : Dev nD) (b : Ref sig .tc) (hb : Tracked b) : W13 m ρ c (Proc.devRef .tc b) = W1 m ρ c (Proc.devRef .tc b) := (step13 m ρ c b hb).trans (at12 m ρ c b hb)
theorem at14 (c : Dev nD) (b : Ref sig .tc) (hb : Tracked b) : W14 m ρ c (Proc.devRef .tc b) = W1 m ρ c (Proc.devRef .tc b) := (step14 m ρ c b hb).trans (at13 m ρ c b hb)
theorem at15 (c : Dev nD) (b : Ref sig .tc) (hb : Tracked b) : W15 m ρ c (Proc.devRef .tc b) = W1 m ρ c (Proc.devRef .tc b) := (step15 m ρ c b hb).trans (at14 m ρ c b hb)

/-! The first stretch writes no argument. -/
theorem w1_arg0 (c : Dev nD) : W1 m ρ c (Proc.devRef .tc main_arg0) = m ((c : Thread nD τ).loc main_arg0) :=
  (show W1 m ρ c (Proc.devRef .tc main_arg0) = W0 m ρ c (Proc.devRef .tc main_arg0) by host_keeps hostOps0).trans rfl
theorem w1_arg2 (c : Dev nD) : W1 m ρ c (Proc.devRef .tc main_arg2) = m ((c : Thread nD τ).loc main_arg2) :=
  (show W1 m ρ c (Proc.devRef .tc main_arg2) = W0 m ρ c (Proc.devRef .tc main_arg2) by host_keeps hostOps0).trans rfl
theorem w1_arg3 (c : Dev nD) : W1 m ρ c (Proc.devRef .tc main_arg3) = m ((c : Thread nD τ).loc main_arg3) :=
  (show W1 m ρ c (Proc.devRef .tc main_arg3) = W0 m ρ c (Proc.devRef .tc main_arg3) by host_keeps hostOps0).trans rfl
theorem w1_arg5 (c : Dev nD) : W1 m ρ c (Proc.devRef .tc main_arg5) = m ((c : Thread nD τ).loc main_arg5) :=
  (show W1 m ρ c (Proc.devRef .tc main_arg5) = W0 m ρ c (Proc.devRef .tc main_arg5) by host_keeps hostOps0).trans rfl
theorem w1_arg6 (c : Dev nD) : W1 m ρ c (Proc.devRef .tc main_arg6) = m ((c : Thread nD τ).loc main_arg6) :=
  (show W1 m ρ c (Proc.devRef .tc main_arg6) = W0 m ρ c (Proc.devRef .tc main_arg6) by host_keeps hostOps0).trans rfl
theorem w1_arg7 (c : Dev nD) : W1 m ρ c (Proc.devRef .tc main_arg7) = m ((c : Thread nD τ).loc main_arg7) :=
  (show W1 m ρ c (Proc.devRef .tc main_arg7) = W0 m ρ c (Proc.devRef .tc main_arg7) by host_keeps hostOps0).trans rfl
theorem w1_arg8 (c : Dev nD) : W1 m ρ c (Proc.devRef .tc main_arg8) = m ((c : Thread nD τ).loc main_arg8) :=
  (show W1 m ρ c (Proc.devRef .tc main_arg8) = W0 m ρ c (Proc.devRef .tc main_arg8) by host_keeps hostOps0).trans rfl
theorem w1_arg9 (c : Dev nD) : W1 m ρ c (Proc.devRef .tc main_arg9) = m ((c : Thread nD τ).loc main_arg9) :=
  (show W1 m ρ c (Proc.devRef .tc main_arg9) = W0 m ρ c (Proc.devRef .tc main_arg9) by host_keeps hostOps0).trans rfl

end Cert.Keep

end
-- ==== Proof.LibDotSum.lean ====
/-
  A matrix product read at an entry.  For dimension numbers `d` of a plain product `[A,K] × [K,M] → [A,M]`
  (one contracted axis: the columns of the left factor against the rows of the right one, no batch axis) the sum over
  the contraction index of the factors' products, at the entry `(p, j)`, is the textbook sum
  `∑ k, l (p, k) · r (k, j)` over `Fin K`.  The four coordinate facts `hl0 … hr1` say what "plain" means; they are
  proved once per record, at literal extents.  Then the two products a program can spell — a `tpu.matmul` into a zero
  accumulator and the host's `dot_general` — are that sum on the extended reals.
-/
import Idealize.ShloMosaic.Lib.ValueIdx
import Idealize.ShloMosaic.PureOps.Ideal.Laws

noncomputable section

namespace Cert.DotSum

open Idealize.ShloMosaic Idealize.ShloMosaic.ValueIdx

/-- The contraction sum of a plain product at the entry `(p, j)`, re-indexed over `Fin K`. -/
theorem contr_sum {A K M : ℕ} (d : DotDims ⟨2, ![A, K]⟩ ⟨2, ![K, M]⟩ ⟨2, ![A, M]⟩)
    (hr : d.contr.rank = 1) (hs : d.contr.size ⟨0, by omega⟩ = K)
    (hl0 : ∀ (i : (⟨2, ![A, M]⟩ : Shape).Idx) (q : d.contr.Idx), (d.lhsIdx i q 0).val = (i 0).val)
    (hl1 : ∀ (i : (⟨2, ![A, M]⟩ : Shape).Idx) (q : d.contr.Idx), (d.lhsIdx i q 1).val = (q ⟨0, by omega⟩).val)
    (hr0 : ∀ (i : (⟨2, ![A, M]⟩ : Shape).Idx) (q : d.contr.Idx), (d.rhsIdx i q 0).val = (q ⟨0, by omega⟩).val)
    (hr1 : ∀ (i : (⟨2, ![A, M]⟩ : Shape).Idx) (q : d.contr.Idx), (d.rhsIdx i q 1).val = (i 1).val)
    (l : (⟨2, ![A, K]⟩ : Shape).Idx → EReal) (r : (⟨2, ![K, M]⟩ : Shape).Idx → EReal) (p : Fin A) (j : Fin M) :
    ∑ q : d.contr.Idx, l (d.lhsIdx (ix2 p j) q) * r (d.rhsIdx (ix2 p j) q) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.DotSum

end
-- ==== Proof.LibDense.lean ====
/-
  The dense pieces of a two-layer graph convolution with a mean-pool head, as functions on the extended reals, and
  the two spellings a program has for each.

  `prod x w` is the matrix product, entry (p, j) the sum over k of x (p, k) · w (k, j); `act x b` adds the one-row
  matrix `b` to every row of `x` and takes the maximum with zero (bias, then relu); `shift y b` adds the one-row matrix
  to every row.  A kernel spells a product as a matrix-unit product into a zero accumulator, the host as a
  `dot_general`; a kernel spreads the bias row by a vector broadcast of the (re-cast) row and takes the maximum with a
  splat of the scalar zero, the host broadcasts the row in dimensions (0, 1) and takes the maximum with a broadcast of
  the rank-0 zero.  Both spellings of each piece are the one function; nothing here uses more of the arithmetic of the
  extended reals than 0 + s = s, so no finiteness is needed.  General in the extents A, K, M.  Also: each function read
  through maps of its indices (`prod_reindex`, `act_reindex`, `shift_reindex`: a block of rows of a product is the
  product of the block of rows, and the like), and a vector re-cast as one row against its broadcast along axis 1
  (`row_cast_eq_broadcast`).  The product lemmas take the four coordinate facts of a plain [A,K]×[K,M] record, as
  `Cert.DotSum.contr_sum` (LibDotSum.lean, which this file needs beside it) does.
-/
import proofs.«162737_j31078383353907_1_alg».proof.Proof.LibDotSum
import Idealize.ShloMosaic.Lib.ValueIdx
import Idealize.ShloMosaic.Lib.ValueLayout
import Idealize.ShloMosaic.Lib.IdealHost
import Idealize.ShloMosaic.Lib.KernelVsHost
import Idealize.ShloMosaic.Lib.Pipeline.Value
import Idealize.ShloMosaic.PureOps.Ideal.Laws

noncomputable section

namespace Cert.Dense

open Idealize.ShloMosaic Idealize.ShloMosaic.ValueIdx

/-- The matrix product on the extended reals: entry (p, j) is the sum over k of x (p, k) · w (k, j). -/
def prod {A K M : ℕ} (x : (⟨2, ![A, K]⟩ : Shape).Idx → EReal) (w : (⟨2, ![K, M]⟩ : Shape).Idx → EReal) :
    (⟨2, ![A, M]⟩ : Shape).Idx → EReal :=
  fun i => ∑ k : Fin K, x (ix2 (i 0 : Fin A) k) * w (ix2 k (i 1 : Fin M))

/-- Bias and relu: the one-row matrix `b` added to every row, then the maximum with zero. -/
def act {A M : ℕ} (x : (⟨2, ![A, M]⟩ : Shape).Idx → EReal) (b : (⟨2, ![1, M]⟩ : Shape).Idx → EReal) :
    (⟨2, ![A, M]⟩ : Shape).Idx → EReal :=
  fun i => max (x i + b (ix2 (0 : Fin 1) (i 1 : Fin M))) (Ideal.ofBits .f32 0x00000000#32)

/-- The one-row matrix `b` added to every row. -/
def shift {A M : ℕ} (y : (⟨2, ![A, M]⟩ : Shape).Idx → EReal) (b : (⟨2, ![1, M]⟩ : Shape).Idx → EReal) :
    (⟨2, ![A, M]⟩ : Shape).Idx → EReal :=
  fun i => y i + b (ix2 (0 : Fin 1) (i 1 : Fin M))

theorem prod_apply {A K M : ℕ} (x : (⟨2, ![A, K]⟩ : Shape).Idx → EReal) (w : (⟨2, ![K, M]⟩ : Shape).Idx → EReal)
    (p : Fin A) (j : Fin M) : prod x w (ix2 p j) = ∑ k : Fin K, x (ix2 p k) * w (ix2 k j) := rfl

theorem act_apply {A M : ℕ} (x : (⟨2, ![A, M]⟩ : Shape).Idx → EReal) (b : (⟨2, ![1, M]⟩ : Shape).Idx → EReal)
    (p : Fin A) (j : Fin M) :
    act x b (ix2 p j) = max (x (ix2 p j) + b (ix2 (0 : Fin 1) j)) (Ideal.ofBits .f32 0x00000000#32) := rfl

theorem shift_apply {A M : ℕ} (y : (⟨2, ![A, M]⟩ : Shape).Idx → EReal) (b : (⟨2, ![1, M]⟩ : Shape).Idx → EReal)
    (p : Fin A) (j : Fin M) : shift y b (ix2 p j) = y (ix2 p j) + b (ix2 (0 : Fin 1) j) := rfl

/-- The product of two matrices read through maps of their indices, at an entry `j`, is the product of the matrices
    at the entry `j'` whenever the maps carry row `j 0` to row `j' 0` and column `j 1` to column `j' 1`, the
    contraction coordinate kept: a block of rows of a product is the product of the block of rows. -/
theorem prod_reindex {A K M A' M' : ℕ} (X : (⟨2, ![A', K]⟩ : Shape).Idx → EReal) (W : (⟨2, ![K, M']⟩ : Shape).Idx → EReal)
    (eX : (⟨2, ![A, K]⟩ : Shape).Idx → (⟨2, ![A', K]⟩ : Shape).Idx) (eW : (⟨2, ![K, M]⟩ : Shape).Idx → (⟨2, ![K, M']⟩ : Shape).Idx)
    (j : (⟨2, ![A, M]⟩ : Shape).Idx) (j' : (⟨2, ![A', M']⟩ : Shape).Idx)
    (hX : ∀ k : Fin K, eX (ix2 (j 0 : Fin A) k) = ix2 (j' 0 : Fin A') k)
    (hW : ∀ k : Fin K, eW (ix2 k (j 1 : Fin M)) = ix2 k (j' 1 : Fin M')) :
    prod (fun y => X (eX y)) (fun y => W (eW y)) j = prod X W j' :=
  Finset.sum_congr rfl fun k _ => by
    show X (eX (ix2 (j 0 : Fin A) k)) * W (eW (ix2 k (j 1 : Fin M))) = X (ix2 (j' 0 : Fin A') k) * W (ix2 k (j' 1 : Fin M'))
    rw [hX k, hW k]
    rfl

/-- Bias-then-relu of a matrix and a bias row read through maps of their indices, at an entry `j`, is bias-then-relu
    of the matrix and the row at the entry `j'` whenever the first map carries `j` to `j'` and the second keeps the
    column: a block of rows of bias-then-relu is bias-then-relu of the block of rows. -/
theorem act_reindex {A M A' : ℕ} (X : (⟨2, ![A', M]⟩ : Shape).Idx → EReal) (B : (⟨2, ![1, M]⟩ : Shape).Idx → EReal)
    (eX : (⟨2, ![A, M]⟩ : Shape).Idx → (⟨2, ![A', M]⟩ : Shape).Idx) (eB : (⟨2, ![1, M]⟩ : Shape).Idx → (⟨2, ![1, M]⟩ : Shape).Idx)
    (j : (⟨2, ![A, M]⟩ : Shape).Idx) (j' : (⟨2, ![A', M]⟩ : Shape).Idx)
    (hX : eX j = j') (hB : eB (ix2 (0 : Fin 1) (j 1 : Fin M)) = ix2 (0 : Fin 1) (j' 1 : Fin M)) :
    act (fun y => X (eX y)) (fun y => B (eB y)) j = act X B j' := by
  show max (X (eX j) + B (eB (ix2 (0 : Fin 1) (j 1 : Fin M)))) _ = max (X j' + B (ix2 (0 : Fin 1) (j' 1 : Fin M))) _
  rw [hX, hB]
  rfl

/-- A matrix shifted by a bias row read through a map of its indices, at an entry `j`, is the shift at `j'` whenever
    the matrices agree there and the map keeps the column. -/
theorem shift_reindex {A M A' : ℕ} (Y' : (⟨2, ![A, M]⟩ : Shape).Idx → EReal) (Y : (⟨2, ![A', M]⟩ : Shape).Idx → EReal)
    (B : (⟨2, ![1, M]⟩ : Shape).Idx → EReal) (eB : (⟨2, ![1, M]⟩ : Shape).Idx → (⟨2, ![1, M]⟩ : Shape).Idx)
    (j : (⟨2, ![A, M]⟩ : Shape).Idx) (j' : (⟨2, ![A', M]⟩ : Shape).Idx)
    (hY : Y' j = Y j') (hB : eB (ix2 (0 : Fin 1) (j 1 : Fin M)) = ix2 (0 : Fin 1) (j' 1 : Fin M)) :
    shift Y' (fun y => B (eB y)) j = shift Y B j' := by
  show Y' j + B (eB (ix2 (0 : Fin 1) (j 1 : Fin M))) = Y j' + B (ix2 (0 : Fin 1) (j' 1 : Fin M))
  rw [hY, hB]
  rfl

/-! ## The product, in a kernel and on the host -/

section Products

variable {A K M : ℕ} {φ₁ φ₂ : FTy} (d : DotDims ⟨2, ![A, K]⟩ ⟨2, ![K, M]⟩ ⟨2, ![A, M]⟩)
  (hr : d.contr.rank = 1) (hs : d.contr.size ⟨0, by omega⟩ = K)
  (hl0 : ∀ (i : (⟨2, ![A, M]⟩ : Shape).Idx) (q : d.contr.Idx), (d.lhsIdx i q 0).val = (i 0).val)
  (hl1 : ∀ (i : (⟨2, ![A, M]⟩ : Shape).Idx) (q : d.contr.Idx), (d.lhsIdx i q 1).val = (q ⟨0, by omega⟩).val)
  (hr0 : ∀ (i : (⟨2, ![A, M]⟩ : Shape).Idx) (q : d.contr.Idx), (d.rhsIdx i q 0).val = (q ⟨0, by omega⟩).val)
  (hr1 : ∀ (i : (⟨2, ![A, M]⟩ : Shape).Idx) (q : d.contr.Idx), (d.rhsIdx i q 1).val = (i 1).val)

include hr hs hl0 hl1 hr0 hr1

/-- A kernel's matrix-unit product into a zero accumulator is the product. -/
theorem matmul_zero_eq_prod (prec : Option ContractPrecision) (l : FVec Ideal ⟨2, ![A, K]⟩ φ₁) (r : FVec Ideal ⟨2, ![K, M]⟩ φ₂) :
    matmul d prec l r (constant ⟨2, ![A, M]⟩ .f32 0x00000000#32) = prod l r := by
  funext i
  obtain ⟨p, j, rfl⟩ : ∃ (p : Fin A) (j : Fin M), i = ix2 p j := ⟨i 0, i 1, eq_ix2 i⟩
  show FloatOps.matmul d prec l r (constant ⟨2, ![A, M]⟩ .f32 0x00000000#32) (ix2 p j) = _
  rw [Ideal.matmul_constant_zero_apply]
  exact Cert.DotSum.contr_sum d hr hs hl0 hl1 hr0 hr1 l r p j

/-- The host's `dot_general` is the product. -/
theorem dotGeneral_eq_prod (prec : Option ContractPrecision) (l : FVec Ideal ⟨2, ![A, K]⟩ φ₁) (r : FVec Ideal ⟨2, ![K, M]⟩ φ₂) :
    Host.dotGeneral d prec l r = prod l r := by
  rw [← matmul_zero_eq_dotGeneral]
  exact matmul_zero_eq_prod d hr hs hl0 hl1 hr0 hr1 prec l r

end Products

/-! ## Bias and relu, in a kernel and on the host -/

/-- A kernel's form: the row re-cast (twice) and broadcast down the rows, added, and the maximum with a splat of the
    scalar zero. -/
theorem kernel_act {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ (shapeCast ⟨2, ![1, M]⟩ b hb) hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, shapeCast_self, maximumf_apply, addf_apply, broadcast_apply,
    broadcastTo_1b_ab_apply]
  rfl

/-- The host's form: the row broadcast in dimensions (0, 1), added, and the maximum with a broadcast of the rank-0
    zero. -/
theorem host_act {A M : ℕ} (x : (⟨2, ![A, M]⟩ : Shape).Idx → EReal) (b : (⟨2, ![1, M]⟩ : Shape).Idx → EReal)
    (hbc : (⟨2, ![1, M]⟩ : Shape).BroadcastsInDim ⟨2, ![A, M]⟩ ![0, 1])
    (h0 : (⟨0, ![]⟩ : Shape).BroadcastsInDim ⟨2, ![A, M]⟩ ![]) :
    maximumf (F := Ideal) (φ := .f32)
        (addf x (broadcastInDim ⟨2, ![A, M]⟩ ![0, 1] hbc b))
        (broadcastInDim ⟨2, ![A, M]⟩ ![] h0 (constant (F := Ideal) ⟨0, ![]⟩ .f32 0x00000000#32))
      = act x b := by
  funext i
  obtain ⟨p, j, rfl⟩ : ∃ (p : Fin A) (j : Fin M), i = ix2 p j := ⟨i 0, i 1, eq_ix2 i⟩
  rw [maximumf_apply, addf_apply, broadcastInDim_oneRow_apply, broadcastInDim_scalar_apply, constant_apply]
  rfl

/-- A kernel's form of the shifted product's last step: the row re-cast (twice) and broadcast down the rows, added. -/
theorem kernel_shift {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ (shapeCast ⟨2, ![1, M]⟩ b hb) hb) hbc)
      = shift y b := by
  funext i
  obtain ⟨p, j, rfl⟩ : ∃ (p : Fin A) (j : Fin M), i = ix2 p j := ⟨i 0, i 1, eq_ix2 i⟩
  rw [shapeCast_self, shapeCast_self, addf_apply, broadcastTo_1b_ab_apply]
  rfl

/-- The host's form: the row broadcast in dimensions (0, 1), added. -/
theorem host_shift {A M : ℕ} (y : (⟨2, ![A, M]⟩ : Shape).Idx → EReal) (b : (⟨2, ![1, M]⟩ : Shape).Idx → EReal)
    (hbc : (⟨2, ![1, M]⟩ : Shape).BroadcastsInDim ⟨2, ![A, M]⟩ ![0, 1]) :
    addf (F := Ideal) (φ := .f32) y (broadcastInDim ⟨2, ![A, M]⟩ ![0, 1] hbc b) = shift y b := by
  funext i
  obtain ⟨p, j, rfl⟩ : ∃ (p : Fin A) (j : Fin M), i = ix2 p j := ⟨i 0, i 1, eq_ix2 i⟩
  rw [addf_apply, broadcastInDim_oneRow_apply]
  rfl

/-! ## A vector as a one-row matrix, two ways -/

/-- A vector of `n` entries re-cast as one row is the vector broadcast along axis 1 into one row. -/
theorem row_cast_eq_broadcast {n : ℕ} {α : Type} (v : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ v hc = broadcastInDim ⟨2, ![1, n]⟩ ![1] hb v := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply v hc (ix2 (0 : Fin 1) t) (ix1 t) (by
    rw [Shape.rowMajor_val_two, Shape.rowMajor_val_one]; show t.val = 0 * n + t.val; omega)
  have e3 := broadcastInDim_apply ![1] hb v (ix2 (0 : Fin 1) t) (ix1 t) (by
    intro a
    match a with
    | ⟨0, _⟩ =>
      show t.val = if n = 1 then 0 else t.val
      split
      · have := t.isLt; omega
      · rfl)
  exact e2.trans e3.symm

end Cert.Dense

end
-- ==== Proof.LibRowBlocks.lean ====
/-
  Blocks of rows of the dense pieces, and a kernel's single-cast spelling of bias and relu.

  A matrix of N rows cut into blocks of R consecutive rows: row r of block n is row n·R + r of the whole matrix
  (`up`).  Each dense piece of LibDense.lean commutes with taking a block of rows, the other operand (weights, or a
  one-row bias) kept whole: a block of rows of a product is the product of the block of rows (`prod_up`), and the same
  for bias-then-relu (`act_up`) and bias (`shift_up`).  So a network tail applied block by block computes the blocks
  of the tail applied to the whole matrix.  General in the extents.

  Also the spelling a kernel body has when it re-casts the bias row ONCE before broadcasting it down the rows
  (LibDense.lean's `kernel_act` / `kernel_shift` are for a body that casts it twice): `act_cast` (the matrix itself
  re-cast too), `act_plain` (the matrix as computed), `shift_plain`.

  It imports LibDense.lean (and, through it, LibDotSum.lean), so it needs those two files beside it.
-/
import proofs.«162737_j31078383353907_1_alg».proof.Proof.LibDense

noncomputable section

namespace Cert.RowBlocks

open Idealize.ShloMosaic Idealize.ShloMosaic.ValueIdx Cert.Dense

/-- Index (r, j) of the n-th block of R rows, as an index of the whole N-row matrix: (n·R + r, j). -/
def up {R N M : ℕ} (n : ℕ) (h : n * R + R ≤ N) (y : (⟨2, ![R, M]⟩ : Shape).Idx) : (⟨2, ![N, M]⟩ : Shape).Idx :=
  ix2 (⟨n * R + (y 0).val, by have h0 : (y 0).val < R := (y 0).isLt; omega⟩ : Fin N) (y 1 : Fin M)

theorem up_row {R N M : ℕ} (n : ℕ) (h : n * R + R ≤ N) (y : (⟨2, ![R, M]⟩ : Shape).Idx) :
    ((up (N := N) n h y) 0).val = n * R + (y 0).val := rfl

theorem up_col {R N M : ℕ} (n : ℕ) (h : n * R + R ≤ N) (y : (⟨2, ![R, M]⟩ : Shape).Idx) :
    ((up (N := N) n h y) 1).val = (y 1).val := rfl

/-- A block of rows of a product is the product of the block of rows. -/
theorem prod_up {R N K M : ℕ} (n : ℕ) (h : n * R + R ≤ N) (X : (⟨2, ![N, K]⟩ : Shape).Idx → EReal)
    (W : (⟨2, ![K, M]⟩ : Shape).Idx → EReal) :
    prod (fun y => X (up n h y)) W = fun j => prod X W (up n h j) :=
  funext fun j => prod_reindex X W (up n h) (fun y => y) j (up n h j) (fun _ => rfl) (fun _ => rfl)

/-- A block of rows of bias-then-relu is bias-then-relu of the block of rows. -/
theorem act_up {R N M : ℕ} (n : ℕ) (h : n * R + R ≤ N) (X : (⟨2, ![N, M]⟩ : Shape).Idx → EReal)
    (B : (⟨2, ![1, M]⟩ : Shape).Idx → EReal) :
    act (fun y => X (up n h y)) B = fun j => act X B (up n h j) :=
  funext fun j => act_reindex X B (up n h) (fun y => y) j (up n h j) rfl rfl

/-- A block of rows of a matrix shifted by a bias row is the shifted block of rows. -/
theorem shift_up {R N M : ℕ} (n : ℕ) (h : n * R + R ≤ N) (Y : (⟨2, ![N, M]⟩ : Shape).Idx → EReal)
    (B : (⟨2, ![1, M]⟩ : Shape).Idx → EReal) :
    shift (fun y => Y (up n h y)) B = fun j => shift Y B (up n h j) :=
  funext fun j => shift_reindex (fun y => Y (up n h y)) Y B (fun y => y) j (up n h j) rfl rfl

/-! ## Bias and relu in a kernel that re-casts the bias row once -/

/-- The matrix and the row each re-cast to their own shape, the row broadcast down the rows, added, and the maximum
    with a splat of the scalar zero. -/
theorem act_cast {A M : ℕ} (x : (⟨2, ![A, M]⟩ : Shape).Idx → EReal) (b : (⟨2, ![1, M]⟩ : Shape).Idx → EReal)
    (hx : (⟨2, ![A, M]⟩ : Shape).ShapeCasts ⟨2, ![A, M]⟩) (hb : (⟨2, ![1, M]⟩ : Shape).ShapeCasts ⟨2, ![1, M]⟩)
    (hbc : (⟨2, ![1, M]⟩ : Shape).Broadcasts ⟨2, ![A, M]⟩) :
    maximumf (F := Ideal) (φ := .f32)
        (addf (shapeCast ⟨2, ![A, M]⟩ x hx) (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, shapeCast_self, maximumf_apply, addf_apply, broadcast_apply, broadcastTo_1b_ab_apply]
  rfl

/-- The same on a matrix used as computed (no cast of its own). -/
theorem act_plain {A M : ℕ} (x : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    maximumf (F := Ideal) (φ := .f32)
        (addf x (broadcastTo ⟨2, ![A, M]⟩ (shapeCast ⟨2, ![1, M]⟩ b hb) hbc))
        (broadcast ⟨2, ![A, M]⟩ (Scalar.ofBits (F := Ideal) .f32 0x00000000#32))
      = act x b := by
  funext i
  obtain ⟨p, j, rfl⟩ : ∃ (p : Fin A) (j : Fin M), i = ix2 p j := ⟨i 0, i 1, eq_ix2 i⟩
  rw [shapeCast_self, maximumf_apply, addf_apply, broadcast_apply, broadcastTo_1b_ab_apply]
  rfl

/-- The bias row re-cast once, broadcast down the rows and added. -/
theorem shift_plain {A M : ℕ} (y : (⟨2, ![A, M]⟩ : Shape).Idx → EReal) (b : (⟨2, ![1, M]⟩ : Shape).Idx → EReal)
    (hb : (⟨2, ![1, M]⟩ : Shape).ShapeCasts ⟨2, ![1, M]⟩) (hbc : (⟨2, ![1, M]⟩ : Shape).Broadcasts ⟨2, ![A, M]⟩) :
    addf (F := Ideal) (φ := .f32) y (broadcastTo ⟨2, ![A, M]⟩ (shapeCast ⟨2, ![1, M]⟩ b hb) hbc) = shift y b := by
  funext i
  obtain ⟨p, j, rfl⟩ : ∃ (p : Fin A) (j : Fin M), i = ix2 p j := ⟨i 0, i 1, eq_ix2 i⟩
  rw [shapeCast_self, addf_apply, broadcastTo_1b_ab_apply]
  rfl

end Cert.RowBlocks

end
-- ==== Proof.Spec.lean ====
/-
  A generalized-PageRank graph network on the extended reals, as one function of its inputs.

  Dense pieces: the matrix product `prod` and the bias row added to every row `shift` (LibDense.lean), the maximum with
  zero `relu`, every entry times one number `scale`, and `mix h a t = h + relu a · t`.  The network: h = x·W_in + b_in;
  three layers, each z = c·W_k + b_k, a = agg z, next c = relu a; the read-out is
  ((h·t0 + relu a1·t1) + relu a2·t2) + relu a3·t3, times W_out, plus b_out.  The aggregation step `agg` (gather rows
  along edges, weight them, add them up per target node) is a parameter: both programs apply the same function, and
  nothing here looks inside it.  Nothing uses more of the arithmetic of the extended reals than the operations
  themselves, so no finiteness is needed.

  Also here: the two spellings a program has for relu, scale and mix (a kernel spreads a [1,1] matrix by a vector
  broadcast and takes the maximum with a splat of the scalar zero; the host broadcasts rank-0 arrays), and each piece
  read on a block of rows (`relu_up`, `scale_up`, `mix_up`).
-/
import proofs.«162737_j31078383353907_1_alg».proof.Proof.LibRowBlocks

noncomputable section

namespace Cert.Gpr

open Idealize.ShloMosaic Idealize.ShloMosaic.ValueIdx Cert.Dense Cert.RowBlocks

/-- A matrix of extended reals with A rows and B columns. -/
abbrev Mat (A B : ℕ) := (⟨2, ![A, B]⟩ : Shape).Idx → EReal

/-- The maximum with zero, entry by entry. -/
def relu {A M : ℕ} (a : Mat A M) : Mat A M := fun i => max (a i) (Ideal.ofBits .f32 0x00000000#32)

/-- Every entry times one number. -/
def scale {A M : ℕ} (a : Mat A M) (t : EReal) : Mat A M := fun i => a i * t

/-- h + relu a · t, entry by entry. -/
def mix {A M : ℕ} (h a : Mat A M) (t : EReal) : Mat A M := fun i => h i + relu a i * t

theorem relu_apply {A M : ℕ} (a : Mat A M) (i) : relu a i = max (a i) (Ideal.ofBits .f32 0x00000000#32) := rfl
theorem scale_apply {A M : ℕ} (a : Mat A M) (t : EReal) (i) : scale a t i = a i * t := rfl
theorem mix_apply {A M : ℕ} (h a : Mat A M) (t : EReal) (i) : mix h a t i = h i + relu a i * t := rfl

/-- The network's output, the aggregation step a parameter. -/
def net (agg : Mat 50000 64 → Mat 50000 64) (x : Mat 50000 256) (win : Mat 256 64) (bin : Mat 1 64)
    (w1 w2 w3 : Mat 64 64) (b1 b2 b3 : Mat 1 64) (wout : Mat 64 64) (bout : Mat 1 64) (t0 t1 t2 t3 : EReal) : Mat 50000 64 :=
  shift (prod
    (mix (mix (mix (scale (shift (prod x win) bin) t0)
        (agg (shift (prod (shift (prod x win) bin) w1) b1)) t1)
        (agg (shift (prod (relu (agg (shift (prod (shift (prod x win) bin) w1) b1))) w2) b2)) t2)
        (agg (shift (prod (relu (agg (shift (prod (relu (agg (shift (prod (shift (prod x win) bin) w1) b1))) w2) b2))) w3) b3)) t3)
    wout) bout

/-! ## A [1,1] matrix spread over [a,b] -/

/-- A [1,1] array broadcast to [a,b] reads its one entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The kernel's spellings -/

/-- The matrix re-cast to its own shape, then the maximum with a splat of the scalar zero. -/
theorem kernel_relu {A M : ℕ} (x : Mat A M) (hx : (⟨2, ![A, M]⟩ : Shape).ShapeCasts ⟨2, ![A, M]⟩) :
    maximumf (F := Ideal) (φ := .f32) (shapeCast ⟨2, ![A, M]⟩ x hx)
        (broadcast ⟨2, ![A, M]⟩ (Scalar.ofBits (F := Ideal) .f32 0x00000000#32)) = relu x := by
  funext i
  rw [shapeCast_self, maximumf_apply, broadcast_apply]
  rfl

/-- A matrix times a [1,1] matrix re-cast once and spread over it. -/
theorem kernel_scale {A M : ℕ} (y : Mat A M) (t : Mat 1 1) (ht : (⟨2, ![1, 1]⟩ : Shape).ShapeCasts ⟨2, ![1, 1]⟩)
    (hbc : (⟨2, ![1, 1]⟩ : Shape).Broadcasts ⟨2, ![A, M]⟩) :
    mulf (F := Ideal) (φ := .f32) y (broadcastTo ⟨2, ![A, M]⟩ (shapeCast ⟨2, ![1, 1]⟩ t ht) hbc)
      = scale y (t (ix2 (0 : Fin 1) (0 : Fin 1))) := by
  funext i
  obtain ⟨p, j, rfl⟩ : ∃ (p : Fin A) (j : Fin M), i = ix2 p j := ⟨i 0, i 1, eq_ix2 i⟩
  rw [shapeCast_self, mulf_apply, broadcastTo_11_ab_apply]
  rfl

/-- The carried matrix re-cast to its own shape, plus relu of the aggregate times the spread [1,1] matrix. -/
theorem kernel_mix {A M : ℕ} (h a : Mat A M) (t : Mat 1 1) (hh : (⟨2, ![A, M]⟩ : Shape).ShapeCasts ⟨2, ![A, M]⟩)
    (ht : (⟨2, ![1, 1]⟩ : Shape).ShapeCasts ⟨2, ![1, 1]⟩) (hbc : (⟨2, ![1, 1]⟩ : Shape).Broadcasts ⟨2, ![A, M]⟩) :
    addf (F := Ideal) (φ := .f32) (shapeCast ⟨2, ![A, M]⟩ h hh)
        (mulf (F := Ideal) (φ := .f32) (relu a) (broadcastTo ⟨2, ![A, M]⟩ (shapeCast ⟨2, ![1, 1]⟩ t ht) hbc))
      = mix h a (t (ix2 (0 : Fin 1) (0 : Fin 1))) := by
  funext i
  obtain ⟨p, j, rfl⟩ : ∃ (p : Fin A) (j : Fin M), i = ix2 p j := ⟨i 0, i 1, eq_ix2 i⟩
  rw [shapeCast_self, shapeCast_self, addf_apply, mulf_apply, broadcastTo_11_ab_apply]
  rfl

/-! ## The host's spellings -/

/-- The maximum with a broadcast of the rank-0 zero. -/
theorem host_relu {A M : ℕ} (x : Mat A M) (h0 : (⟨0, ![]⟩ : Shape).BroadcastsInDim ⟨2, ![A, M]⟩ ![]) :
    maximumf (F := Ideal) (φ := .f32) x
        (broadcastInDim ⟨2, ![A, M]⟩ ![] h0 (constant (F := Ideal) ⟨0, ![]⟩ .f32 0x00000000#32)) = relu x := by
  funext i
  rw [maximumf_apply, broadcastInDim_scalar_apply, constant_apply]
  rfl

/-- A matrix times a broadcast rank-0 array. -/
theorem host_scale {A M : ℕ} (y : Mat A M) (s : (⟨0, ![]⟩ : Shape).Idx → EReal)
    (h0 : (⟨0, ![]⟩ : Shape).BroadcastsInDim ⟨2, ![A, M]⟩ ![]) :
    mulf (F := Ideal) (φ := .f32) y (broadcastInDim ⟨2, ![A, M]⟩ ![] h0 s) = scale y (s ix0) := by
  funext i
  rw [mulf_apply, broadcastInDim_scalar_apply]
  rfl

/-- The carried matrix plus relu of the aggregate times a broadcast rank-0 array. -/
theorem host_mix {A M : ℕ} (h a : Mat A M) (s : (⟨0, ![]⟩ : Shape).Idx → EReal)
    (h0 : (⟨0, ![]⟩ : Shape).BroadcastsInDim ⟨2, ![A, M]⟩ ![]) :
    addf (F := Ideal) (φ := .f32) h (mulf (F := Ideal) (φ := .f32) (relu a) (broadcastInDim ⟨2, ![A, M]⟩ ![] h0 s))
      = mix h a (s ix0) := by
  funext i
  rw [addf_apply, mulf_apply, broadcastInDim_scalar_apply]
  rfl

/-! ## Blocks of rows -/

/-- relu of a block of rows is the block of rows of relu. -/
theorem relu_up {R N M : ℕ} (n : ℕ) (h : n * R + R ≤ N) (X : Mat N M) :
    relu (fun y => X (up n h y)) = fun j => relu X (up n h j) := rfl

/-- A scaled block of rows is the block of rows of the scaled matrix. -/
theorem scale_up {R N M : ℕ} (n : ℕ) (h : n * R + R ≤ N) (X : Mat N M) (t : EReal) :
    scale (fun y => X (up n h y)) t = fun j => scale X t (up n h j) := rfl

/-- mix of blocks of rows is the block of rows of mix. -/
theorem mix_up {R N M : ℕ} (n : ℕ) (h : n * R + R ≤ N) (H X : Mat N M) (t : EReal) :
    mix (fun y => H (up n h y)) (fun y => X (up n h y)) t = fun j => mix H X t (up n h j) := rfl

end Cert.Gpr

end
-- ==== Proof.KernelNet.lean ====
/-
  The network as the kernel's program reads it off its argument arrays.

  The host operations between the regions prepare each region's small operands: the bias vectors re-cast as one-row
  matrices, plane k of the stacked layer weights and row k of the stacked layer biases cut out and re-cast, entry k of
  the coefficient vector cut out and re-cast as a [1,1] matrix, the two rows of the edge table cut out and re-cast as
  vectors; and they aggregate: rows of z gathered at the first row's words (a negative word wrapped by 50000), each row
  times its edge weight, added up per target node (the second row's words) into zeros.  Here are those readings as
  functions of the ten argument arrays, the matrices the regions and stretches produce one after the other, and the
  fact that the last one is the network of Spec.lean at these readings.
-/
import proofs.«162737_j31078383353907_1_alg».proof.Proof.Spec
import proofs.«162737_j31078383353907_1_alg».proof.Proof.Gen.KernelIdeal

noncomputable section

namespace Cert.KernelNet

open Idealize.ShloMosaic Idealize.ShloMosaic.ValueIdx Cert.Dense Cert.Gpr Cert.KernelIdeal
open Cert.KernelIdeal.Facts₀ Cert.KernelIdeal.Facts

/-! ## The small operands -/

/-- A bias vector as a one-row matrix. -/
def rowK (v : S64.Idx → EReal) : S1x64.Idx → EReal := shapeCast S1x64 v shapeCasts_S64_S1x64

/-- Plane 0, 1, 2 of the stacked layer weights. -/
def w1K (x5 : S3x64x64.Idx → EReal) : S64x64.Idx → EReal :=
  shapeCast S64x64 (extractStridedSlice S1x64x64 ![0, 0, 0] x5 slices_S3x64x64_S1x64x64_0_0_0) shapeCasts_S1x64x64_S64x64
def w2K (x5 : S3x64x64.Idx → EReal) : S64x64.Idx → EReal :=
  shapeCast S64x64 (extractStridedSlice S1x64x64 ![1, 0, 0] x5 slices_S3x64x64_S1x64x64_1_0_0) shapeCasts_S1x64x64_S64x64
def w3K (x5 : S3x64x64.Idx → EReal) : S64x64.Idx → EReal :=
  shapeCast S64x64 (extractStridedSlice S1x64x64 ![2, 0, 0] x5 slices_S3x64x64_S1x64x64_2_0_0) shapeCasts_S1x64x64_S64x64

/-- Row 0, 1, 2 of the stacked layer biases, as a vector and then as a one-row matrix. -/
def b1K (x6 : S3x64.Idx → EReal) : S1x64.Idx → EReal :=
  shapeCast S1x64 (shapeCast S64 (extractStridedSlice S1x64 ![0, 0] x6 slices_S3x64_S1x64_0_0) shapeCasts_S1x64_S64) shapeCasts_S64_S1x64
def b2K (x6 : S3x64.Idx → EReal) : S1x64.Idx → EReal :=
  shapeCast S1x64 (shapeCast S64 (extractStridedSlice S1x64 ![1, 0] x6 slices_S3x64_S1x64_1_0) shapeCasts_S1x64_S64) shapeCasts_S64_S1x64
def b3K (x6 : S3x64.Idx → EReal) : S1x64.Idx → EReal :=
  shapeCast S1x64 (shapeCast S64 (extractStridedSlice S1x64 ![2, 0] x6 slices_S3x64_S1x64_2_0) shapeCasts_S1x64_S64) shapeCasts_S64_S1x64

/-- Entry 0, 1, 2, 3 of the coefficient vector as a [1,1] matrix. -/
def t0K (x9 : S4.Idx → EReal) : S1x1.Idx → EReal := shapeCast S1x1 (extractStridedSlice S1 ![0] x9 slices_S4_S1_0) shapeCasts_S1_S1x1
def t1K (x9 : S4.Idx → EReal) : S1x1.Idx → EReal := shapeCast S1x1 (extractStridedSlice S1 ![1] x9 slices_S4_S1_1) shapeCasts_S1_S1x1
def t2K (x9 : S4.Idx → EReal) : S1x1.Idx → EReal := shapeCast S1x1 (extractStridedSlice S1 ![2] x9 slices_S4_S1_2) shapeCasts_S1_S1x1
def t3K (x9 : S4.Idx → EReal) : S1x1.Idx → EReal := shapeCast S1x1 (extractStridedSlice S1 ![3] x9 slices_S4_S1_3) shapeCasts_S1_S1x1

/-- The two rows of the edge table as vectors of words. -/
def srcK (x1 : S2x800000.Idx → BitVec 32) : S800000.Idx → BitVec 32 :=
  shapeCast S800000 (extractStridedSlice S1x800000 ![0, 0] x1 slices_S2x800000_S1x800000_0_0) shapeCasts_S1x800000_S800000
def dstK (x1 : S2x800000.Idx → BitVec 32) : S800000.Idx → BitVec 32 :=
  shapeCast S800000 (extractStridedSlice S1x800000 ![1, 0] x1 slices_S2x800000_S1x800000_1_0) shapeCasts_S1x800000_S800000

/-! ## The aggregation step -/

/-- Rows of z gathered at the source words (a negative word wrapped by 50000), each times its edge weight, added up
    per target word into zeros. -/
def aggK (src dst : S800000.Idx → BitVec 32) (ew : S800000.Idx → EReal) (z : Mat 50000 64) : Mat 50000 64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (φ := .f32)
      (Host.gather gather_S50000x64_S800000x1_S800000x64_1_0_n_n_0_1_164 z
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x64 ![0, 1] bcast_S800000x1_S800000x64_0_1 (broadcastInDim S800000x1 ![0] bcast_S800000_S800000x1_0 ew)))

/-! ## The matrices the program produces, one after the other -/

section Chain

variable (x0 : Mat 50000 256) (x1 : S2x800000.Idx → BitVec 32) (x2 : S800000.Idx → EReal) (x3 : Mat 256 64)
  (x4 : S64.Idx → EReal) (x5 : S3x64x64.Idx → EReal) (x6 : S3x64.Idx → EReal) (x7 : Mat 64 64) (x8 : S64.Idx → EReal)
  (x9 : S4.Idx → EReal)

/-- The aggregation step at this program's edge table and edge weights. -/
def agg (z : Mat 50000 64) : Mat 50000 64 := aggK (srcK x1) (dstK x1) x2 z

def mH : Mat 50000 64 := shift (prod x0 x3) (rowK x4)
def mHid0 : Mat 50000 64 := scale (mH x0 x3 x4) (t0K x9 (ix2 (0 : Fin 1) (0 : Fin 1)))
def mZ1 : Mat 50000 64 := shift (prod (mH x0 x3 x4) (w1K x5)) (b1K x6)
def mA1 : Mat 50000 64 := agg x1 x2 (mZ1 x0 x3 x4 x5 x6)
def mHid1 : Mat 50000 64 := mix (mHid0 x0 x3 x4 x9) (mA1 x0 x1 x2 x3 x4 x5 x6) (t1K x9 (ix2 (0 : Fin 1) (0 : Fin 1)))
def mZ2 : Mat 50000 64 := shift (prod (relu (mA1 x0 x1 x2 x3 x4 x5 x6)) (w2K x5)) (b2K x6)
def mA2 : Mat 50000 64 := agg x1 x2 (mZ2 x0 x1 x2 x3 x4 x5 x6)
def mHid2 : Mat 50000 64 := mix (mHid1 x0 x1 x2 x3 x4 x5 x6 x9) (mA2 x0 x1 x2 x3 x4 x5 x6) (t2K x9 (ix2 (0 : Fin 1) (0 : Fin 1)))
def mZ3 : Mat 50000 64 := shift (prod (relu (mA2 x0 x1 x2 x3 x4 x5 x6)) (w3K x5)) (b3K x6)
def mA3 : Mat 50000 64 := agg x1 x2 (mZ3 x0 x1 x2 x3 x4 x5 x6)
def mHid3 : Mat 50000 64 := mix (mHid2 x0 x1 x2 x3 x4 x5 x6 x9) (mA3 x0 x1 x2 x3 x4 x5 x6) (t3K x9 (ix2 (0 : Fin 1) (0 : Fin 1)))
def mOut : Mat 50000 64 := shift (prod (mHid3 x0 x1 x2 x3 x4 x5 x6 x9) x7) (rowK x8)

/-- The last matrix is the network at the kernel's readings of its operands. -/
theorem mOut_eq_net :
    mOut x0 x1 x2 x3 x4 x5 x6 x7 x8 x9
      = net (agg x1 x2) x0 x3 (rowK x4) (w1K x5) (w2K x5) (w3K x5) (b1K x6) (b2K x6) (b3K x6) x7 (rowK x8)
          (t0K x9 (ix2 (0 : Fin 1) (0 : Fin 1))) (t1K x9 (ix2 (0 : Fin 1) (0 : Fin 1)))
          (t2K x9 (ix2 (0 : Fin 1) (0 : Fin 1))) (t3K x9 (ix2 (0 : Fin 1) (0 : Fin 1))) := by
  unfold mOut mHid3 mA3 mZ3 mHid2 mA2 mZ2 mHid1 mA1 mZ1 mHid0 mH net
  rfl

end Chain

end Cert.KernelNet

end
-- ==== Proof.Payloads.lean ====
/-
  What each kernel body computes, as a function of the blocks it loads, on the extended reals.

  The first body forms the block of x times W_in plus the bias row, and that block times the first coefficient; the
  layer bodies form a block of activations times a layer's weights plus its bias row; the combine bodies form the
  maximum of a block of the aggregate with zero, and the carried block plus that maximum times a coefficient; the last
  body is a layer body on the read-out weights.  Rounding an operand on its way into the matrix unit is the identity on
  the extended reals, a matrix-unit product into a zero accumulator is the plain sum over the shared coordinate
  (LibDense.lean), and the spreads of a bias row or of a [1,1] coefficient read the row or the one entry.
-/
import proofs.«162737_j31078383353907_1_alg».proof.Proof.Gen.KernelIdeal.Skeleton
import proofs.«162737_j31078383353907_1_alg».proof.Proof.Spec

noncomputable section

namespace Cert.Payloads

open Idealize.ShloMosaic Idealize.ShloMosaic.ValueIdx Cert.Dense Cert.RowBlocks Cert.Gpr Cert.KernelIdeal Cert.KernelIdeal.Gen

/-! The coordinates the record `dot_S5000x256_S256x64_S5000x64_1_0_0_1_n_n` reads: row of the left factor and column of the right factor from the entry,
    the shared coordinate from the contraction index. -/
theorem d256_l0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem d256_l1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem d256_r0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem d256_r1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-! The coordinates the record `dot_S5000x64_S64x64_S5000x64_1_0_0_1_n_n` reads: row of the left factor and column of the right factor from the entry,
    the shared coordinate from the contraction index. -/
theorem d64_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem d64_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem d64_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem d64_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Region 0's first store: the block of x times W_in plus the bias row. -/
theorem k0_pay1_eq (v0 : Vec Ideal S5000x256 .f32) (v2 : Vec Ideal S256x64 .f32) (v5 : Vec Ideal S1x64 .f32) :
    k0_pay1 (F := Ideal) v0 v2 v5 = shift (prod v0 v2) v5 := by
  unfold k0_pay1
  dsimp only
  rw [matmul_zero_eq_prod dot_S5000x256_S256x64_S5000x64_1_0_0_1_n_n rfl rfl d256_l0 d256_l1 d256_r0 d256_r1]
  refine (shift_plain _ _ _ _).trans ?_
  rfl

/-- Region 0's second store: that block times the first coefficient. -/
theorem k0_pay2_eq (v0 : Vec Ideal S5000x256 .f32) (v2 : Vec Ideal S256x64 .f32) (v5 : Vec Ideal S1x64 .f32) (v10 : Vec Ideal S1x1 .f32) :
    k0_pay2 (F := Ideal) v0 v2 v5 v10 = scale (shift (prod v0 v2) v5) (v10 (ix2 (0 : Fin 1) (0 : Fin 1))) := by
  unfold k0_pay2
  dsimp only
  rw [k0_pay1_eq]
  exact kernel_scale _ v10 _ _

/-- Region 1's body: the block of activations times the layer's weights (both rounded on the way into the product, the
    identity on the extended reals), plus the bias row on every row. -/
theorem k1_pay1_eq (v0 : Vec Ideal S5000x64 .f32) (v3 : Vec Ideal S64x64 .f32) (v7 : Vec Ideal S1x64 .f32) :
    k1_pay1 (F := Ideal) v0 v3 v7 = shift (prod v0 v3) v7 := by
  unfold k1_pay1
  dsimp only
  rw [matmul_zero_eq_prod dot_S5000x64_S64x64_S5000x64_1_0_0_1_n_n rfl rfl d64_l0 d64_l1 d64_r0 d64_r1]
  refine (shift_plain _ _ _ _).trans ?_
  rw [shapeCast_self, shapeCast_self]
  rfl

/-- Region 2's first store: the maximum of the aggregate with zero. -/
theorem k2_pay1_eq (v0 : Vec Ideal S5000x64 .f32) : k2_pay1 (F := Ideal) v0 = relu v0 := by
  unfold k2_pay1
  dsimp only
  exact kernel_relu v0 _

/-- Region 2's second store: the carried sum plus that maximum times the layer's coefficient. -/
theorem k2_pay2_eq (v0 : Vec Ideal S5000x64 .f32) (v5 : Vec Ideal S5000x64 .f32) (v7 : Vec Ideal S1x1 .f32) :
    k2_pay2 (F := Ideal) v0 v5 v7 = mix v5 v0 (v7 (ix2 (0 : Fin 1) (0 : Fin 1))) := by
  unfold k2_pay2
  dsimp only
  rw [k2_pay1_eq]
  exact kernel_mix v5 v0 v7 _ _ _

/-- Region 3's body: the block of activations times the layer's weights (both rounded on the way into the product, the
    identity on the extended reals), plus the bias row on every row. -/
theorem k3_pay1_eq (v0 : Vec Ideal S5000x64 .f32) (v3 : Vec Ideal S64x64 .f32) (v7 : Vec Ideal S1x64 .f32) :
    k3_pay1 (F := Ideal) v0 v3 v7 = shift (prod v0 v3) v7 := by
  unfold k3_pay1
  dsimp only
  rw [matmul_zero_eq_prod dot_S5000x64_S64x64_S5000x64_1_0_0_1_n_n rfl rfl d64_l0 d64_l1 d64_r0 d64_r1]
  refine (shift_plain _ _ _ _).trans ?_
  rw [shapeCast_self, shapeCast_self]
  rfl

/-- Region 4's first store: the maximum of the aggregate with zero. -/
theorem k4_pay1_eq (v0 : Vec Ideal S5000x64 .f32) : k4_pay1 (F := Ideal) v0 = relu v0 := by
  unfold k4_pay1
  dsimp only
  exact kernel_relu v0 _

/-- Region 4's second store: the carried sum plus that maximum times the layer's coefficient. -/
theorem k4_pay2_eq (v0 : Vec Ideal S5000x64 .f32) (v5 : Vec Ideal S5000x64 .f32) (v7 : Vec Ideal S1x1 .f32) :
    k4_pay2 (F := Ideal) v0 v5 v7 = mix v5 v0 (v7 (ix2 (0 : Fin 1) (0 : Fin 1))) := by
  unfold k4_pay2
  dsimp only
  rw [k4_pay1_eq]
  exact kernel_mix v5 v0 v7 _ _ _

/-- Region 5's body: the block of activations times the layer's weights (both rounded on the way into the product, the
    identity on the extended reals), plus the bias row on every row. -/
theorem k5_pay1_eq (v0 : Vec Ideal S5000x64 .f32) (v3 : Vec Ideal S64x64 .f32) (v7 : Vec Ideal S1x64 .f32) :
    k5_pay1 (F := Ideal) v0 v3 v7 = shift (prod v0 v3) v7 := by
  unfold k5_pay1
  dsimp only
  rw [matmul_zero_eq_prod dot_S5000x64_S64x64_S5000x64_1_0_0_1_n_n rfl rfl d64_l0 d64_l1 d64_r0 d64_r1]
  refine (shift_plain _ _ _ _).trans ?_
  rw [shapeCast_self, shapeCast_self]
  rfl

/-- Region 6's first store: the maximum of the aggregate with zero. -/
theorem k6_pay1_eq (v0 : Vec Ideal S5000x64 .f32) : k6_pay1 (F := Ideal) v0 = relu v0 := by
  unfold k6_pay1
  dsimp only
  exact kernel_relu v0 _

/-- Region 6's second store: the carried sum plus that maximum times the layer's coefficient. -/
theorem k6_pay2_eq (v0 : Vec Ideal S5000x64 .f32) (v5 : Vec Ideal S5000x64 .f32) (v7 : Vec Ideal S1x1 .f32) :
    k6_pay2 (F := Ideal) v0 v5 v7 = mix v5 v0 (v7 (ix2 (0 : Fin 1) (0 : Fin 1))) := by
  unfold k6_pay2
  dsimp only
  rw [k6_pay1_eq]
  exact kernel_mix v5 v0 v7 _ _ _

/-- Region 7's body: the block of the carried sum times W_out (both rounded on the way in), plus the bias row. -/
theorem k7_pay1_eq (v0 : Vec Ideal S5000x64 .f32) (v3 : Vec Ideal S64x64 .f32) (v6 : Vec Ideal S1x64 .f32) :
    k7_pay1 (F := Ideal) v0 v3 v6 = shift (prod v0 v3) v6 := by
  unfold k7_pay1
  dsimp only
  rw [matmul_zero_eq_prod dot_S5000x64_S64x64_S5000x64_1_0_0_1_n_n rfl rfl d64_l0 d64_l1 d64_r0 d64_r1]
  refine (shift_plain _ _ _ _).trans ?_
  rw [shapeCast_self]
  rfl

end Cert.Payloads

end
-- ==== Proof.Region0.lean ====
/-
  What region 0 (a block of rows of x times W_in plus the bias row, stored as it is and stored again times the first
  coefficient) leaves in its two output arrays, for any contents `V` of the buffers when the region is entered:
  `shift (prod X W) B` and that matrix scaled by the one entry of the coefficient's [1,1] array.  Grid point t handles
  rows 5000·t … 5000·t + 4999: its input block is those rows of X, the weights, the bias row and the coefficient are
  read whole, and a block of rows of a product is the product of the block of rows; the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region0

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two results as functions of the arrays the region reads. -/
abbrev Gh (c : Dev nD) : S50000x64.Idx → EReal :=
  shift (prod (V c main_arg0 : S50000x256.Idx → EReal) (V c main_arg3 : S256x64.Idx → EReal)) (V c main_v6 : S1x64.Idx → EReal)
abbrev Ghid (c : Dev nD) : S50000x64.Idx → EReal :=
  scale (Gh V c) ((V c main_v5 : S1x1.Idx → EReal) (ix2 (0 : Fin 1) (0 : Fin 1)))

/-- The printed index maps over the grid: the input block of x moves with the output blocks along the rows, the
    weights, the bias row and the coefficient stay at block (0, 0), and the row block is below 10. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = win0_4.index t (0 : Fin 2) ∧ win0_5.index t (1 : Fin 2) = 0
    ∧ win0_4.index t (0 : Fin 2) ≤ 9 ∧ win0_4.index t (1 : Fin 2) = 0 :=
  (by decide +kernel : ∀ t : Fin grid0.N, _)

/-- Every block of rows is some point's, for each output window. -/
theorem idx_onto4 : ∀ q0 : Fin 10, ∃ t : Fin cfg0.N, win0_4.index t = ![q0.val, 0] :=
  (by decide +kernel : ∀ q0 : Fin 10, ∃ t : Fin grid0.N, win0_4.index t = ![q0.val, 0])
theorem idx_onto5 : ∀ q0 : Fin 10, ∃ t : Fin cfg0.N, win0_5.index t = ![q0.val, 0] :=
  (by decide +kernel : ∀ q0 : Fin 10, ∃ t : Fin grid0.N, win0_5.index t = ![q0.val, 0])

/-- Rows of the product plus bias, from maps of the indices that read those rows of X and all of W and B. -/
theorem block_read (X : S50000x256.Idx → EReal) (W : S256x64.Idx → EReal) (B : S1x64.Idx → EReal)
    (e0 : S5000x256.Idx → S50000x256.Idx) (e1 : S256x64.Idx → S256x64.Idx) (e2 : S1x64.Idx → S1x64.Idx)
    (e4 : S5000x64.Idx → S50000x64.Idx) (j : S5000x64.Idx)
    (hX : ∀ k : Fin 256, e0 (ix2 (j 0 : Fin 5000) k) = ix2 ((e4 j) 0 : Fin 50000) k)
    (hW : ∀ k : Fin 256, e1 (ix2 k (j 1 : Fin 64)) = ix2 k ((e4 j) 1 : Fin 64))
    (hB : e2 (ix2 (0 : Fin 1) (j 1 : Fin 64)) = ix2 (0 : Fin 1) ((e4 j) 1 : Fin 64)) :
    shift (prod (fun y => X (e0 y)) (fun y => W (e1 y))) (fun y => B (e2 y)) j = shift (prod X W) B (e4 j) :=
  shift_reindex _ (prod X W) B e2 j (e4 j) (prod_reindex X W e0 e1 j (e4 j) hX hW) hB

/-- The same scaled by the coefficient read through a map of its index. -/
theorem block_read_scaled (X : S50000x256.Idx → EReal) (W : S256x64.Idx → EReal) (B : S1x64.Idx → EReal) (T : S1x1.Idx → EReal)
    (e0 : S5000x256.Idx → S50000x256.Idx) (e1 : S256x64.Idx → S256x64.Idx) (e2 : S1x64.Idx → S1x64.Idx) (e3 : S1x1.Idx → S1x1.Idx)
    (e5 : S5000x64.Idx → S50000x64.Idx) (j : S5000x64.Idx)
    (hX : ∀ k : Fin 256, e0 (ix2 (j 0 : Fin 5000) k) = ix2 ((e5 j) 0 : Fin 50000) k)
    (hW : ∀ k : Fin 256, e1 (ix2 k (j 1 : Fin 64)) = ix2 k ((e5 j) 1 : Fin 64))
    (hB : e2 (ix2 (0 : Fin 1) (j 1 : Fin 64)) = ix2 (0 : Fin 1) ((e5 j) 1 : Fin 64))
    (hT : e3 (ix2 (0 : Fin 1) (0 : Fin 1)) = ix2 (0 : Fin 1) (0 : Fin 1)) :
    scale (shift (prod (fun y => X (e0 y)) (fun y => W (e1 y))) (fun y => B (e2 y))) (T (e3 (ix2 (0 : Fin 1) (0 : Fin 1)))) j
      = scale (shift (prod X W) B) (T (ix2 (0 : Fin 1) (0 : Fin 1))) (e5 j) := by
  show shift (prod (fun y => X (e0 y)) (fun y => W (e1 y))) (fun y => B (e2 y)) j * T (e3 _) = shift (prod X W) B (e5 j) * T _
  rw [block_read X W B e0 e1 e2 e5 j hX hW hB, hT]

/-- What point t writes back through window 4 is block t of the product plus bias. -/
theorem flushed_eq4 (c : Dev nD) (t : Fin cfg0.N) :
    (dat0 (F := Ideal) V c).flushed 4 t = ((cfg0.win 4).blk t).view.read (Elt Ideal) (Gh V c) := by
  show (cfg0.win 4).cut (grid0.coords t) ((dat0 V c).after 4 t) = _
  rw [after0_4]
  unfold out0_4
  rw [View.canon_unit_zero hz]
  simp only [View.ld_unit_zero (S := S5000x256) hz, View.ld_unit_zero (S := S256x64) hz, View.ld_unit_zero (S := S1x64) hz]
  rw [k0_pay1_eq]
  obtain ⟨e0, e1, e2, e3, e4, e5, e6, e7, e8, e9, e10, e11⟩ := idx_facts t
  funext j
  have hj0 : (j 0).val < 5000 := (j 0).isLt
  have hj1 : (j 1).val < 64 := (j 1).isLt
  refine block_read (V c main_arg0) (V c main_arg3) (V c main_v6)
    (fun y => ((cfg0.win 0).blk t).view.emb y) (fun y => ((cfg0.win 1).blk t).view.emb y)
    (fun y => ((cfg0.win 2).blk t).view.emb y) (fun y => ((cfg0.win 4).blk t).view.emb y) j ?_ ?_ ?_
  · intro k
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 256 + 1 * k.val = k.val; omega
  · intro k
    funext a; apply Fin.ext
    match a with
    | ⟨0, _⟩ => show win0_1.index t (0 : Fin 2) * 256 + 1 * k.val = k.val; omega
    | ⟨1, _⟩ => show win0_1.index t (1 : Fin 2) * 64 + 1 * (j 1).val = win0_4.index t (1 : Fin 2) * 64 + 1 * (j 1).val; omega
  · funext a; apply Fin.ext
    match a with
    | ⟨0, _⟩ => show win0_2.index t (0 : Fin 2) * 1 + 1 * 0 = 0; omega
    | ⟨1, _⟩ => show win0_2.index t (1 : Fin 2) * 64 + 1 * (j 1).val = win0_4.index t (1 : Fin 2) * 64 + 1 * (j 1).val; omega

/-- What point t writes back through window 5 is block t of the product plus bias, scaled. -/
theorem flushed_eq5 (c : Dev nD) (t : Fin cfg0.N) :
    (dat0 (F := Ideal) V c).flushed 5 t = ((cfg0.win 5).blk t).view.read (Elt Ideal) (Ghid V c) := by
  show (cfg0.win 5).cut (grid0.coords t) ((dat0 V c).after 5 t) = _
  rw [after0_5]
  unfold out0_5
  rw [View.canon_unit_zero hz]
  simp only [View.ld_unit_zero (S := S5000x256) hz, View.ld_unit_zero (S := S256x64) hz, View.ld_unit_zero (S := S1x64) hz, View.ld_unit_zero (S := S1x1) hz]
  rw [k0_pay2_eq]
  obtain ⟨e0, e1, e2, e3, e4, e5, e6, e7, e8, e9, e10, e11⟩ := idx_facts t
  funext j
  have hj0 : (j 0).val < 5000 := (j 0).isLt
  have hj1 : (j 1).val < 64 := (j 1).isLt
  refine block_read_scaled (V c main_arg0) (V c main_arg3) (V c main_v6) (V c main_v5)
    (fun y => ((cfg0.win 0).blk t).view.emb y) (fun y => ((cfg0.win 1).blk t).view.emb y)
    (fun y => ((cfg0.win 2).blk t).view.emb y) (fun y => ((cfg0.win 3).blk t).view.emb y)
    (fun y => ((cfg0.win 5).blk t).view.emb y) j ?_ ?_ ?_ ?_
  · intro k
    funext a; apply Fin.ext
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 256 + 1 * k.val = k.val; omega
  · intro k
    funext a; apply Fin.ext
    match a with
    | ⟨0, _⟩ => show win0_1.index t (0 : Fin 2) * 256 + 1 * k.val = k.val; omega
    | ⟨1, _⟩ => show win0_1.index t (1 : Fin 2) * 64 + 1 * (j 1).val = win0_5.index t (1 : Fin 2) * 64 + 1 * (j 1).val; omega
  · funext a; apply Fin.ext
    match a with
    | ⟨0, _⟩ => show win0_2.index t (0 : Fin 2) * 1 + 1 * 0 = 0; omega
    | ⟨1, _⟩ => show win0_2.index t (1 : Fin 2) * 64 + 1 * (j 1).val = win0_5.index t (1 : Fin 2) * 64 + 1 * (j 1).val; omega
  · funext a; apply Fin.ext
    match a with
    | ⟨0, _⟩ => show win0_3.index t (0 : Fin 2) * 1 + 1 * 0 = 0; omega
    | ⟨1, _⟩ => show win0_3.index t (1 : Fin 2) * 1 + 1 * 0 = 0; omega

/-- An index of the array is in point t's block of window 4 iff each coordinate is in the block's range on its axis. -/
theorem mem_blk4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v7_0).slice (win0_4.rect t)).set ↔ _
  rw [View.set_slice_whole, Rect.mem_set_unit]
  exact Iff.rfl

/-- Every index of the array is in some point's block of window 4: row r is in block r / 5000. -/
theorem cover4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  obtain ⟨t, ht⟩ := idx_onto4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- Output window 4's array after the region. -/
theorem final4 (c : Dev nD) : (dat0 (F := Ideal) V c).arrAt 4 cfg0.N = Gh V c :=
  (dat0 (F := Ideal) V c).arrAt_eq_of_cover 4 (Gh V c) (fun t _ => flushed_eq4 V c t) (fun i => cover4 i)

/-- An index of the array is in point t's block of window 5 iff each coordinate is in the block's range on its axis. -/
theorem mem_blk5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v7_1).slice (win0_5.rect t)).set ↔ _
  rw [View.set_slice_whole, Rect.mem_set_unit]
  exact Iff.rfl

/-- Every index of the array is in some point's block of window 5: row r is in block r / 5000. -/
theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto5 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- Output window 5's array after the region. -/
theorem final5 (c : Dev nD) : (dat0 (F := Ideal) V c).arrAt 5 cfg0.N = Ghid V c :=
  (dat0 (F := Ideal) V c).arrAt_eq_of_cover 5 (Ghid V c) (fun t _ => flushed_eq5 V c t) (fun i => cover5 i)

/-- The same with the arrays the region found given by name. -/
theorem final4_of (c : Dev nD) (X : S50000x256.Idx → EReal) (W : S256x64.Idx → EReal) (B : S1x64.Idx → EReal)
    (hX : V c main_arg0 = X) (hW : V c main_arg3 = W) (hB : V c main_v6 = B) :
    (dat0 (F := Ideal) V c).arrAt 4 cfg0.N = shift (prod X W) B := by
  subst hX; subst hW; subst hB; exact final4 V c
theorem final5_of (c : Dev nD) (X : S50000x256.Idx → EReal) (W : S256x64.Idx → EReal) (B : S1x64.Idx → EReal) (T : S1x1.Idx → EReal)
    (hX : V c main_arg0 = X) (hW : V c main_arg3 = W) (hB : V c main_v6 = B) (hT : V c main_v5 = T) :
    (dat0 (F := Ideal) V c).arrAt 5 cfg0.N = scale (shift (prod X W) B) (T (ix2 (0 : Fin 1) (0 : Fin 1))) := by
  subst hX; subst hW; subst hB; subst hT; exact final5 V c

end Cert.Region0

end
-- ==== Proof.Region1.lean ====
/-
  What region 1 (a block of rows times a weight matrix, plus a bias row) leaves in its output array, for any
  contents `V` of the buffers when the region is entered: the whole product plus bias, `shift (prod X W) B` of the three
  arrays it reads.  Grid point t handles rows 5000·t … 5000·t + 4999: its input block is those rows of X, the weights
  and the bias row are read whole, and what it writes back is those rows of the result (a block of rows of a product is
  the product of the block of rows, LibRowBlocks.lean); the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region1

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it reads. -/
abbrev G (c : Dev nD) : S50000x64.Idx → EReal :=
  shift (prod (V c main_v7_0 : S50000x64.Idx → EReal) (V c main_v9 : S64x64.Idx → EReal)) (V c main_v12 : S1x64.Idx → EReal)

/-- The printed index maps over the grid: the input block moves with the output block along the rows, the weights and
    the bias row stay at block (0, 0), and the output's row block is below 10. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every block of rows is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-- Rows n·5000 … of the product plus bias, from maps of the indices that read those rows of X and all of W and B. -/
theorem block_read (X : S50000x64.Idx → EReal) (W : S64x64.Idx → EReal) (B : S1x64.Idx → EReal)
    (e0 : S5000x64.Idx → S50000x64.Idx) (e1 : S64x64.Idx → S64x64.Idx) (e2 : S1x64.Idx → S1x64.Idx)
    (e3 : S5000x64.Idx → S50000x64.Idx) (j : S5000x64.Idx)
    (hX : ∀ k : Fin 64, e0 (ix2 (j 0 : Fin 5000) k) = ix2 ((e3 j) 0 : Fin 50000) k)
    (hW : ∀ k : Fin 64, e1 (ix2 k (j 1 : Fin 64)) = ix2 k ((e3 j) 1 : Fin 64))
    (hB : e2 (ix2 (0 : Fin 1) (j 1 : Fin 64)) = ix2 (0 : Fin 1) ((e3 j) 1 : Fin 64)) :
    shift (prod (fun y => X (e0 y)) (fun y => W (e1 y))) (fun y => B (e2 y)) j = shift (prod X W) B (e3 j) :=
  shift_reindex _ (prod X W) B e2 j (e3 j) (prod_reindex X W e0 e1 j (e3 j) hX hW) hB

/-- What point t writes back is block t of the result. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  rw [k1_pay1_eq]
  obtain ⟨e0, e1, e2, e3, e4, e5, e6, e7⟩ := idx_facts t
  funext j
  have hj0 : (j 0).val < 5000 := (j 0).isLt
  have hj1 : (j 1).val < 64 := (j 1).isLt
  refine block_read (V c main_v7_0) (V c main_v9) (V c main_v12)
    (fun y => ((cfg1.win 0).blk t).view.emb y) (fun y => ((cfg1.win 1).blk t).view.emb y)
    (fun y => ((cfg1.win 2).blk t).view.emb y) (fun y => ((cfg1.win 3).blk t).view.emb y) j ?_ ?_ ?_
  · intro k
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · intro k
    funext a; apply Fin.ext
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  · funext a; apply Fin.ext
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An index of the array is in point t's block iff each coordinate is in the block's range on its axis. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v13).slice (win1_3.rect t)).set ↔ _
  rw [View.set_slice_whole, Rect.mem_set_unit]
  exact Iff.rfl

/-- Every index of the array is in some point's block: row r is in block r / 5000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- The output array after the region is the product plus bias of the arrays the region found. -/
theorem final (c : Dev nD) : (dat1 (F := Ideal) V c).arrAt 3 cfg1.N = G V c :=
  (dat1 (F := Ideal) V c).arrAt_eq_of_cover 3 (G V c) (fun t _ => flushed_eq V c t) (fun i => cover i)

/-- The same with the arrays the region found given by name. -/
theorem final_of (c : Dev nD) (X : S50000x64.Idx → EReal) (W : S64x64.Idx → EReal) (B : S1x64.Idx → EReal)
    (hX : V c main_v7_0 = X) (hW : V c main_v9 = W) (hB : V c main_v12 = B) :
    (dat1 (F := Ideal) V c).arrAt 3 cfg1.N = shift (prod X W) B := by
  subst hX; subst hW; subst hB; exact final V c

end Cert.Region1

end
-- ==== Proof.Region2.lean ====
/-
  What region 2 (relu of the aggregate, and the carried sum plus relu times a coefficient) leaves in its two output
  arrays, for any contents `V` of the buffers when the region is entered: `relu A` and `mix H A t` of the aggregate A,
  the carried sum H and the one entry t of the coefficient's [1,1] array.  Grid point t handles rows 5000·t … 5000·t +
  4999 of every array; both functions act entry by entry, so a block of rows of the result is the result on the block
  of rows, and the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region2

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two results as functions of the arrays the region reads. -/
abbrev Gcur (c : Dev nD) : S50000x64.Idx → EReal := relu (V c main_v26 : S50000x64.Idx → EReal)
abbrev Ghid (c : Dev nD) : S50000x64.Idx → EReal :=
  mix (V c main_v7_1 : S50000x64.Idx → EReal) (V c main_v26 : S50000x64.Idx → EReal) ((V c main_v28 : S1x1.Idx → EReal) (ix2 (0 : Fin 1) (0 : Fin 1)))

/-- The printed index maps over the grid: all four row-blocked windows move together, the coefficient stays at block
    (0, 0), and the row block is below 10. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_4.index t (0 : Fin 2) = win2_3.index t (0 : Fin 2) ∧ win2_4.index t (1 : Fin 2) = 0
    ∧ win2_3.index t (0 : Fin 2) ≤ 9 ∧ win2_3.index t (1 : Fin 2) = 0 :=
  (by decide +kernel : ∀ t : Fin grid2.N, _)

/-- Every block of rows is some point's, for each output window. -/
theorem idx_onto3 : ∀ q0 : Fin 10, ∃ t : Fin cfg2.N, win2_3.index t = ![q0.val, 0] :=
  (by decide +kernel : ∀ q0 : Fin 10, ∃ t : Fin grid2.N, win2_3.index t = ![q0.val, 0])
theorem idx_onto4 : ∀ q0 : Fin 10, ∃ t : Fin cfg2.N, win2_4.index t = ![q0.val, 0] :=
  (by decide +kernel : ∀ q0 : Fin 10, ∃ t : Fin grid2.N, win2_4.index t = ![q0.val, 0])

/-- relu read through a map of the indices. -/
theorem relu_read (A : S50000x64.Idx → EReal) (e0 e3 : S5000x64.Idx → S50000x64.Idx) (j : S5000x64.Idx) (h0 : e0 j = e3 j) :
    relu (fun y => A (e0 y)) j = relu A (e3 j) := by
  show max (A (e0 j)) _ = max (A (e3 j)) _
  rw [h0]

/-- mix read through maps of the indices. -/
theorem mix_read (H A : S50000x64.Idx → EReal) (T : S1x1.Idx → EReal) (e0 e1 e4 : S5000x64.Idx → S50000x64.Idx) (e2 : S1x1.Idx → S1x1.Idx)
    (j : S5000x64.Idx) (h0 : e0 j = e4 j) (h1 : e1 j = e4 j) (h2 : e2 (ix2 (0 : Fin 1) (0 : Fin 1)) = ix2 (0 : Fin 1) (0 : Fin 1)) :
    mix (fun y => H (e1 y)) (fun y => A (e0 y)) (T (e2 (ix2 (0 : Fin 1) (0 : Fin 1)))) j = mix H A (T (ix2 (0 : Fin 1) (0 : Fin 1))) (e4 j) := by
  show H (e1 j) + max (A (e0 j)) _ * T (e2 _) = H (e4 j) + max (A (e4 j)) _ * T _
  rw [h0, h1, h2]

/-- What point t writes back through window 3 is block t of relu of the aggregate. -/
theorem flushed_eq3 (c : Dev nD) (t : Fin cfg2.N) :
    (dat2 (F := Ideal) V c).flushed 3 t = ((cfg2.win 3).blk t).view.read (Elt Ideal) (Gcur V c) := by
  show (cfg2.win 3).cut (grid2.coords t) ((dat2 V c).after 3 t) = _
  rw [after2_3]
  unfold out2_3
  rw [View.canon_unit_zero hz]
  simp only [View.ld_unit_zero (S := S5000x64) hz]
  rw [k2_pay1_eq]
  obtain ⟨e0, e1, e2, e3, e4, e5, e6, e7, e8, e9⟩ := idx_facts t
  funext j
  have hj0 : (j 0).val < 5000 := (j 0).isLt
  have hj1 : (j 1).val < 64 := (j 1).isLt
  refine relu_read (V c main_v26) (fun y => ((cfg2.win 0).blk t).view.emb y) (fun y => ((cfg2.win 3).blk t).view.emb y) j ?_
  · funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega

/-- What point t writes back through window 4 is block t of the carried sum plus relu times the coefficient. -/
theorem flushed_eq4 (c : Dev nD) (t : Fin cfg2.N) :
    (dat2 (F := Ideal) V c).flushed 4 t = ((cfg2.win 4).blk t).view.read (Elt Ideal) (Ghid V c) := by
  show (cfg2.win 4).cut (grid2.coords t) ((dat2 V c).after 4 t) = _
  rw [after2_4]
  unfold out2_4
  rw [View.canon_unit_zero hz]
  simp only [View.ld_unit_zero (S := S5000x64) hz, View.ld_unit_zero (S := S1x1) hz]
  rw [k2_pay2_eq]
  obtain ⟨e0, e1, e2, e3, e4, e5, e6, e7, e8, e9⟩ := idx_facts t
  funext j
  have hj0 : (j 0).val < 5000 := (j 0).isLt
  have hj1 : (j 1).val < 64 := (j 1).isLt
  refine mix_read (V c main_v7_1) (V c main_v26) (V c main_v28) (fun y => ((cfg2.win 0).blk t).view.emb y) (fun y => ((cfg2.win 1).blk t).view.emb y)
    (fun y => ((cfg2.win 4).blk t).view.emb y) (fun y => ((cfg2.win 2).blk t).view.emb y) j ?_ ?_ ?_
  · funext a; apply Fin.ext
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * (j 1).val = win2_4.index t (1 : Fin 2) * 64 + 1 * (j 1).val; omega
  · funext a; apply Fin.ext
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 64 + 1 * (j 1).val = win2_4.index t (1 : Fin 2) * 64 + 1 * (j 1).val; omega
  · funext a; apply Fin.ext
    match a with
    | ⟨0, _⟩ => show win2_2.index t (0 : Fin 2) * 1 + 1 * 0 = 0; omega
    | ⟨1, _⟩ => show win2_2.index t (1 : Fin 2) * 1 + 1 * 0 = 0; omega

/-- An index of the array is in point t's block of window 3 iff each coordinate is in the block's range on its axis. -/
theorem mem_blk3 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v29_0).slice (win2_3.rect t)).set ↔ _
  rw [View.set_slice_whole, Rect.mem_set_unit]
  exact Iff.rfl

/-- Every index of the array is in some point's block of window 3: row r is in block r / 5000. -/
theorem cover3 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto3 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- Output window 3's array after the region. -/
theorem final3 (c : Dev nD) : (dat2 (F := Ideal) V c).arrAt 3 cfg2.N = Gcur V c :=
  (dat2 (F := Ideal) V c).arrAt_eq_of_cover 3 (Gcur V c) (fun t _ => flushed_eq3 V c t) (fun i => cover3 i)

/-- An index of the array is in point t's block of window 4 iff each coordinate is in the block's range on its axis. -/
theorem mem_blk4 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v29_1).slice (win2_4.rect t)).set ↔ _
  rw [View.set_slice_whole, Rect.mem_set_unit]
  exact Iff.rfl

/-- Every index of the array is in some point's block of window 4: row r is in block r / 5000. -/
theorem cover4 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ := idx_onto4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- Output window 4's array after the region. -/
theorem final4 (c : Dev nD) : (dat2 (F := Ideal) V c).arrAt 4 cfg2.N = Ghid V c :=
  (dat2 (F := Ideal) V c).arrAt_eq_of_cover 4 (Ghid V c) (fun t _ => flushed_eq4 V c t) (fun i => cover4 i)

/-- The same with the arrays the region found given by name. -/
theorem final3_of (c : Dev nD) (A : S50000x64.Idx → EReal) (hA : V c main_v26 = A) :
    (dat2 (F := Ideal) V c).arrAt 3 cfg2.N = relu A := by
  subst hA; exact final3 V c
theorem final4_of (c : Dev nD) (H A : S50000x64.Idx → EReal) (T : S1x1.Idx → EReal) (hH : V c main_v7_1 = H) (hA : V c main_v26 = A) (hT : V c main_v28 = T) :
    (dat2 (F := Ideal) V c).arrAt 4 cfg2.N = mix H A (T (ix2 (0 : Fin 1) (0 : Fin 1))) := by
  subst hH; subst hA; subst hT; exact final4 V c

end Cert.Region2

end
-- ==== Proof.Region3.lean ====
/-
  What region 3 (a block of rows times a weight matrix, plus a bias row) leaves in its output array, for any
  contents `V` of the buffers when the region is entered: the whole product plus bias, `shift (prod X W) B` of the three
  arrays it reads.  Grid point t handles rows 5000·t … 5000·t + 4999: its input block is those rows of X, the weights
  and the bias row are read whole, and what it writes back is those rows of the result (a block of rows of a product is
  the product of the block of rows, LibRowBlocks.lean); the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region3

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it reads. -/
abbrev G (c : Dev nD) : S50000x64.Idx → EReal :=
  shift (prod (V c main_v29_0 : S50000x64.Idx → EReal) (V c main_v31 : S64x64.Idx → EReal)) (V c main_v34 : S1x64.Idx → EReal)

/-- The printed index maps over the grid: the input block moves with the output block along the rows, the weights and
    the bias row stay at block (0, 0), and the output's row block is below 10. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 9 ∧ win3_3.index t (1 : Fin 2) = 0 :=
  (by decide +kernel : ∀ t : Fin grid3.N, _)

/-- Every block of rows is some point's. -/
theorem idx_onto : ∀ q0 : Fin 10, ∃ t : Fin cfg3.N, win3_3.index t = ![q0.val, 0] :=
  (by decide +kernel : ∀ q0 : Fin 10, ∃ t : Fin grid3.N, win3_3.index t = ![q0.val, 0])

/-- Rows n·5000 … of the product plus bias, from maps of the indices that read those rows of X and all of W and B. -/
theorem block_read (X : S50000x64.Idx → EReal) (W : S64x64.Idx → EReal) (B : S1x64.Idx → EReal)
    (e0 : S5000x64.Idx → S50000x64.Idx) (e1 : S64x64.Idx → S64x64.Idx) (e2 : S1x64.Idx → S1x64.Idx)
    (e3 : S5000x64.Idx → S50000x64.Idx) (j : S5000x64.Idx)
    (hX : ∀ k : Fin 64, e0 (ix2 (j 0 : Fin 5000) k) = ix2 ((e3 j) 0 : Fin 50000) k)
    (hW : ∀ k : Fin 64, e1 (ix2 k (j 1 : Fin 64)) = ix2 k ((e3 j) 1 : Fin 64))
    (hB : e2 (ix2 (0 : Fin 1) (j 1 : Fin 64)) = ix2 (0 : Fin 1) ((e3 j) 1 : Fin 64)) :
    shift (prod (fun y => X (e0 y)) (fun y => W (e1 y))) (fun y => B (e2 y)) j = shift (prod X W) B (e3 j) :=
  shift_reindex _ (prod X W) B e2 j (e3 j) (prod_reindex X W e0 e1 j (e3 j) hX hW) hB

/-- What point t writes back is block t of the result. -/
theorem flushed_eq (c : Dev nD) (t : Fin cfg3.N) :
    (dat3 (F := Ideal) V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz, View.ld_unit_zero (S := S1x64) hz]
  rw [k3_pay1_eq]
  obtain ⟨e0, e1, e2, e3, e4, e5, e6, e7⟩ := idx_facts t
  funext j
  have hj0 : (j 0).val < 5000 := (j 0).isLt
  have hj1 : (j 1).val < 64 := (j 1).isLt
  refine block_read (V c main_v29_0) (V c main_v31) (V c main_v34)
    (fun y => ((cfg3.win 0).blk t).view.emb y) (fun y => ((cfg3.win 1).blk t).view.emb y)
    (fun y => ((cfg3.win 2).blk t).view.emb y) (fun y => ((cfg3.win 3).blk t).view.emb y) j ?_ ?_ ?_
  · intro k
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  · intro k
    funext a; apply Fin.ext
    match a with
    | ⟨0, _⟩ => show win3_1.index t (0 : Fin 2) * 64 + 1 * k.val = k.val; omega
    | ⟨1, _⟩ => show win3_1.index t (1 : Fin 2) * 64 + 1 * (j 1).val = win3_3.index t (1 : Fin 2) * 64 + 1 * (j 1).val; omega
  · funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega

/-- An index of the array is in point t's block iff each coordinate is in the block's range on its axis. -/
theorem mem_blk (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v35).slice (win3_3.rect t)).set ↔ _
  rw [View.set_slice_whole, Rect.mem_set_unit]
  exact Iff.rfl

/-- Every index of the array is in some point's block: row r is in block r / 5000. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega

/-- The output array after the region is the product plus bias of the arrays the region found. -/
theorem final (c : Dev nD) : (dat3 (F := Ideal) V c).arrAt 3 cfg3.N = G V c :=
  (dat3 (F := Ideal) V c).arrAt_eq_of_cover 3 (G V c) (fun t _ => flushed_eq V c t) (fun i => cover i)

/-- The same with the arrays the region found given by name. -/
theorem final_of (c : Dev nD) (X : S50000x64.Idx → EReal) (W : S64x64.Idx → EReal) (B : S1x64.Idx → EReal)
    (hX : V c main_v29_0 = X) (hW : V c main_v31 = W) (hB : V c main_v34 = B) :
    (dat3 (F := Ideal) V c).arrAt 3 cfg3.N = shift (prod X W) B := by
  subst hX; subst hW; subst hB; exact final V c

end Cert.Region3

end
-- ==== Proof.Region4.lean ====
/-
  What region 4 (relu of the aggregate, and the carried sum plus relu times a coefficient) leaves in its two output
  arrays, for any contents `V` of the buffers when the region is entered: `relu A` and `mix H A t` of the aggregate A,
  the carried sum H and the one entry t of the coefficient's [1,1] array.  Grid point t handles rows 5000·t … 5000·t +
  4999 of every array; both functions act entry by entry, so a block of rows of the result is the result on the block
  of rows, and the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region4

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two results as functions of the arrays the region reads. -/
abbrev Gcur (c : Dev nD) : S50000x64.Idx → EReal := relu (V c main_v48 : S50000x64.Idx → EReal)
abbrev Ghid (c : Dev nD) : S50000x64.Idx → EReal :=
  mix (V c main_v29_1 : S50000x64.Idx → EReal) (V c main_v48 : S50000x64.Idx → EReal) ((V c main_v50 : S1x1.Idx → EReal) (ix2 (0 : Fin 1) (0 : Fin 1)))

/-- The printed index maps over the grid: all four row-blocked windows move together, the coefficient stays at block
    (0, 0), and the row block is below 10. -/
theorem idx_facts : ∀ t : Fin cfg4.N,
    win4_0.index t (0 : Fin 2) = win4_3.index t (0 : Fin 2) ∧ win4_0.index t (1 : Fin 2) = 0
    ∧ win4_1.index t (0 : Fin 2) = win4_3.index t (0 : Fin 2) ∧ win4_1.index t (1 : Fin 2) = 0
    ∧ win4_2.index t (0 : Fin 2) = 0 ∧ win4_2.index t (1 : Fin 2) = 0
    ∧ win4_4.index t (0 : Fin 2) = win4_3.index t (0 : Fin 2) ∧ win4_4.index t (1 : Fin 2) = 0
    ∧ win4_3.index t (0 : Fin 2) ≤ 9 ∧ win4_3.index t (1 : Fin 2) = 0 :=
  (by decide +kernel : ∀ t : Fin grid4.N, _)

/-- Every block of rows is some point's, for each output window. -/
theorem idx_onto3 : ∀ q0 : Fin 10, ∃ t : Fin cfg4.N, win4_3.index t = ![q0.val, 0] :=
  (by decide +kernel : ∀ q0 : Fin 10, ∃ t : Fin grid4.N, win4_3.index t = ![q0.val, 0])
theorem idx_onto4 : ∀ q0 : Fin 10, ∃ t : Fin cfg4.N, win4_4.index t = ![q0.val, 0] :=
  (by decide +kernel : ∀ q0 : Fin 10, ∃ t : Fin grid4.N, win4_4.index t = ![q0.val, 0])

/-- relu read through a map of the indices. -/
theorem relu_read (A : S50000x64.Idx → EReal) (e0 e3 : S5000x64.Idx → S50000x64.Idx) (j : S5000x64.Idx) (h0 : e0 j = e3 j) :
    relu (fun y => A (e0 y)) j = relu A (e3 j) := by
  show max (A (e0 j)) _ = max (A (e3 j)) _
  rw [h0]

/-- mix read through maps of the indices. -/
theorem mix_read (H A : S50000x64.Idx → EReal) (T : S1x1.Idx → EReal) (e0 e1 e4 : S5000x64.Idx → S50000x64.Idx) (e2 : S1x1.Idx → S1x1.Idx)
    (j : S5000x64.Idx) (h0 : e0 j = e4 j) (h1 : e1 j = e4 j) (h2 : e2 (ix2 (0 : Fin 1) (0 : Fin 1)) = ix2 (0 : Fin 1) (0 : Fin 1)) :
    mix (fun y => H (e1 y)) (fun y => A (e0 y)) (T (e2 (ix2 (0 : Fin 1) (0 : Fin 1)))) j = mix H A (T (ix2 (0 : Fin 1) (0 : Fin 1))) (e4 j) := by
  show H (e1 j) + max (A (e0 j)) _ * T (e2 _) = H (e4 j) + max (A (e4 j)) _ * T _
  rw [h0, h1, h2]

/-- What point t writes back through window 3 is block t of relu of the aggregate. -/
theorem flushed_eq3 (c : Dev nD) (t : Fin cfg4.N) :
    (dat4 (F := Ideal) V c).flushed 3 t = ((cfg4.win 3).blk t).view.read (Elt Ideal) (Gcur V c) := by
  show (cfg4.win 3).cut (grid4.coords t) ((dat4 V c).after 3 t) = _
  rw [after4_3]
  unfold out4_3
  rw [View.canon_unit_zero hz]
  simp only [View.ld_unit_zero (S := S5000x64) hz]
  rw [k4_pay1_eq]
  obtain ⟨e0, e1, e2, e3, e4, e5, e6, e7, e8, e9⟩ := idx_facts t
  funext j
  have hj0 : (j 0).val < 5000 := (j 0).isLt
  have hj1 : (j 1).val < 64 := (j 1).isLt
  refine relu_read (V c main_v48) (fun y => ((cfg4.win 0).blk t).view.emb y) (fun y => ((cfg4.win 3).blk t).view.emb y) j ?_
  · funext a; apply Fin.ext
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * (j 1).val = win4_3.index t (1 : Fin 2) * 64 + 1 * (j 1).val; omega

/-- What point t writes back through window 4 is block t of the carried sum plus relu times the coefficient. -/
theorem flushed_eq4 (c : Dev nD) (t : Fin cfg4.N) :
    (dat4 (F := Ideal) V c).flushed 4 t = ((cfg4.win 4).blk t).view.read (Elt Ideal) (Ghid V c) := by
  show (cfg4.win 4).cut (grid4.coords t) ((dat4 V c).after 4 t) = _
  rw [after4_4]
  unfold out4_4
  rw [View.canon_unit_zero hz]
  simp only [View.ld_unit_zero (S := S5000x64) hz, View.ld_unit_zero (S := S1x1) hz]
  rw [k4_pay2_eq]
  obtain ⟨e0, e1, e2, e3, e4, e5, e6, e7, e8, e9⟩ := idx_facts t
  funext j
  have hj0 : (j 0).val < 5000 := (j 0).isLt
  have hj1 : (j 1).val < 64 := (j 1).isLt
  refine mix_read (V c main_v29_1) (V c main_v48) (V c main_v50) (fun y => ((cfg4.win 0).blk t).view.emb y) (fun y => ((cfg4.win 1).blk t).view.emb y)
    (fun y => ((cfg4.win 4).blk t).view.emb y) (fun y => ((cfg4.win 2).blk t).view.emb y) j ?_ ?_ ?_
  · funext a; apply Fin.ext
    match a with
    | ⟨0, _⟩ => show win4_0.index t (0 : Fin 2) * 5000 + 1 * (j 0).val = win4_4.index t (0 : Fin 2) * 5000 + 1 * (j 0).val; omega
    | ⟨1, _⟩ => show win4_0.index t (1 : Fin 2) * 64 + 1 * (j 1).val = win4_4.index t (1 : Fin 2) * 64 + 1 * (j 1).val; omega
  · funext a; apply Fin.ext
    match a with
    | ⟨0, _⟩ => show win4_1.index t (0 : Fin 2) * 5000 + 1 * (j 0).val = win4_4.index t (0 : Fin 2) * 5000 + 1 * (j 0).val; omega
    | ⟨1, _⟩ => show win4_1.index t (1 : Fin 2) * 64 + 1 * (j 1).val = win4_4.index t (1 : Fin 2) * 64 + 1 * (j 1).val; omega
  · funext a; apply Fin.ext
    match a with
    | ⟨0, _⟩ => show win4_2.index t (0 : Fin 2) * 1 + 1 * 0 = 0; omega
    | ⟨1, _⟩ => show win4_2.index t (1 : Fin 2) * 1 + 1 * 0 = 0; omega

/-- An index of the array is in point t's block of window 3 iff each coordinate is in the block's range on its axis. -/
theorem mem_blk3 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v51_0).slice (win4_3.rect t)).set ↔ _
  rw [View.set_slice_whole, Rect.mem_set_unit]
  exact Iff.rfl

/-- Every index of the array is in some point's block of window 3: row r is in block r / 5000. -/
theorem cover3 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ := idx_onto3 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- Output window 3's array after the region. -/
theorem final3 (c : Dev nD) : (dat4 (F := Ideal) V c).arrAt 3 cfg4.N = Gcur V c :=
  (dat4 (F := Ideal) V c).arrAt_eq_of_cover 3 (Gcur V c) (fun t _ => flushed_eq3 V c t) (fun i => cover3 i)

/-- An index of the array is in point t's block of window 4 iff each coordinate is in the block's range on its axis. -/
theorem mem_blk4 (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v51_1).slice (win4_4.rect t)).set ↔ _
  rw [View.set_slice_whole, Rect.mem_set_unit]
  exact Iff.rfl

/-- Every index of the array is in some point's block of window 4: row r is in block r / 5000. -/
theorem cover4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  obtain ⟨t, ht⟩ := idx_onto4 ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [mem_blk4]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 64 ≤ (i 1).val ∧ (i 1).val < win4_4.index t (1 : Fin 2) * 64 + 64; omega

/-- Output window 4's array after the region. -/
theorem final4 (c : Dev nD) : (dat4 (F := Ideal) V c).arrAt 4 cfg4.N = Ghid V c :=
  (dat4 (F := Ideal) V c).arrAt_eq_of_cover 4 (Ghid V c) (fun t _ => flushed_eq4 V c t) (fun i => cover4 i)

/-- The same with the arrays the region found given by name. -/
theorem final3_of (c : Dev nD) (A : S50000x64.Idx → EReal) (hA : V c main_v48 = A) :
    (dat4 (F := Ideal) V c).arrAt 3 cfg4.N = relu A := by
  subst hA; exact final3 V c
theorem final4_of (c : Dev nD) (H A : S50000x64.Idx → EReal) (T : S1x1.Idx → EReal) (hH : V c main_v29_1 = H) (hA : V c main_v48 = A) (hT : V c main_v50 = T) :
    (dat4 (F := Ideal) V c).arrAt 4 cfg4.N = mix H A (T (ix2 (0 : Fin 1) (0 : Fin 1))) := by
  subst hH; subst hA; subst hT; exact final4 V c

end Cert.Region4

end
-- ==== Proof.Region5.lean ====
/-
  What region 5 (a block of rows times a weight matrix, plus a bias row) leaves in its output array, for any
  contents `V` of the buffers when the region is entered: the whole product plus bias, `shift (prod X W) B` of the three
  arrays it reads.  Grid point t handles rows 5000·t … 5000·t + 4999: its input block is those rows of X, the weights
  and the bias row are read whole, and what it writes back is those rows of the result (a block of rows of a product is
  the product of the block of rows, LibRowBlocks.lean); the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region5

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it reads. -/
abbrev G (c : Dev nD) : S50000x64.Idx → EReal :=
  shift (prod (V c main_v51_0 : S50000x64.Idx → EReal) (V c main_v53 : S64x64.Idx → EReal)) (V c main_v56 : S1x64.Idx → EReal)

/-- The printed index maps over the grid: the input block moves with the output block along the rows, the weights and
    the bias row stay at block (0, 0), and the output's row block is below 10. -/
theorem idx_facts : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 9 ∧ win5_3.index t (1 : Fin 2) = 0 :=
  (by decide +kernel : ∀ t : Fin grid5.N, _)

/-- Every block of rows is some point's. -/
theorem idx_onto : ∀ q0 : Fin 10, ∃ t : Fin cfg5.N, win5_3.index t = ![q0.val, 0] :=
  (by decide +kernel : ∀ q0 : Fin 10, ∃ t : Fin grid5.N, win5_3.index t = ![q0.val, 0])

/-- Rows n·5000 … of the product plus bias, from maps of the indices that read those rows of X and all of W and B. -/
theorem block_read (X : S50000x64.Idx → EReal) (W : S64x64.Idx → EReal) (B : S1x64.Idx → EReal)
    (e0 : S5000x64.Idx → S50000x64.Idx) (e1 : S64x64.Idx → S64x64.Idx) (e2 : S1x64.Idx → S1x64.Idx)
    (e3 : S5000x64.Idx → S50000x64.Idx) (j : S5000x64.Idx)
    (hX : ∀ k : Fin 64, e0 (ix2 (j 0 : Fin 5000) k) = ix2 ((e3 j) 0 : Fin 50000) k)
    (hW : ∀ k : Fin 64, e1 (ix2 k (j 1 : Fin 64)) = ix2 k ((e3 j) 1 : Fin 64))
    (hB : e2 (ix2 (0 : Fin 1) (j 1 : Fin 64)) = ix2 (0 : Fin 1) ((e3 j) 1 : Fin 64)) :
    shift (prod (fun y => X (e0 y)) (fun y => W (e1 y))) (fun y => B (e2 y)) j = shift (prod X W) B (e3 j) :=
  shift_reindex _ (prod X W) B e2 j (e3 j) (prod_reindex X W e0 e1 j (e3 j) hX hW) hB

/-- What point t writes back is block t of the result. -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S5000x64) hz, View.ld_unit_zero (S := S64x64) hz, View.ld_unit_zero (S := S1x64) hz]
  rw [k5_pay1_eq]
  obtain ⟨e0, e1, e2, e3, e4, e5, e6, e7⟩ := idx_facts t
  funext j
  have hj0 : (j 0).val < 5000 := (j 0).isLt
  have hj1 : (j 1).val < 64 := (j 1).isLt
  refine block_read (V c main_v51_0) (V c main_v53) (V c main_v56)
    (fun y => ((cfg5.win 0).blk t).view.emb y) (fun y => ((cfg5.win 1).blk t).view.emb y)
    (fun y => ((cfg5.win 2).blk t).view.emb y) (fun y => ((cfg5.win 3).blk t).view.emb y) j ?_ ?_ ?_
  · intro k
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * k.val = k.val; omega
  · intro k
    funext a; apply Fin.ext
    match a with
    | ⟨0, _⟩ => show win5_1.index t (0 : Fin 2) * 64 + 1 * k.val = k.val; omega
    | ⟨1, _⟩ => show win5_1.index t (1 : Fin 2) * 64 + 1 * (j 1).val = win5_3.index t (1 : Fin 2) * 64 + 1 * (j 1).val; omega
  · funext a; apply Fin.ext
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega

/-- An index of the array is in point t's block iff each coordinate is in the block's range on its axis. -/
theorem mem_blk (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v57).slice (win5_3.rect t)).set ↔ _
  rw [View.set_slice_whole, Rect.mem_set_unit]
  exact Iff.rfl

/-- Every index of the array is in some point's block: row r is in block r / 5000. -/
theorem cover (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The output array after the region is the product plus bias of the arrays the region found. -/
theorem final (c : Dev nD) : (dat5 (F := Ideal) V c).arrAt 3 cfg5.N = G V c :=
  (dat5 (F := Ideal) V c).arrAt_eq_of_cover 3 (G V c) (fun t _ => flushed_eq V c t) (fun i => cover i)

/-- The same with the arrays the region found given by name. -/
theorem final_of (c : Dev nD) (X : S50000x64.Idx → EReal) (W : S64x64.Idx → EReal) (B : S1x64.Idx → EReal)
    (hX : V c main_v51_0 = X) (hW : V c main_v53 = W) (hB : V c main_v56 = B) :
    (dat5 (F := Ideal) V c).arrAt 3 cfg5.N = shift (prod X W) B := by
  subst hX; subst hW; subst hB; exact final V c

end Cert.Region5

end
-- ==== Proof.Region6.lean ====
/-
  What region 6 (relu of the aggregate, and the carried sum plus relu times a coefficient) leaves in its two output
  arrays, for any contents `V` of the buffers when the region is entered: `relu A` and `mix H A t` of the aggregate A,
  the carried sum H and the one entry t of the coefficient's [1,1] array.  Grid point t handles rows 5000·t … 5000·t +
  4999 of every array; both functions act entry by entry, so a block of rows of the result is the result on the block
  of rows, and the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region6

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The two results as functions of the arrays the region reads. -/
abbrev Gcur (c : Dev nD) : S50000x64.Idx → EReal := relu (V c main_v70 : S50000x64.Idx → EReal)
abbrev Ghid (c : Dev nD) : S50000x64.Idx → EReal :=
  mix (V c main_v51_1 : S50000x64.Idx → EReal) (V c main_v70 : S50000x64.Idx → EReal) ((V c main_v72 : S1x1.Idx → EReal) (ix2 (0 : Fin 1) (0 : Fin 1)))

/-- The printed index maps over the grid: all four row-blocked windows move together, the coefficient stays at block
    (0, 0), and the row block is below 10. -/
theorem idx_facts : ∀ t : Fin cfg6.N,
    win6_0.index t (0 : Fin 2) = win6_3.index t (0 : Fin 2) ∧ win6_0.index t (1 : Fin 2) = 0
    ∧ win6_1.index t (0 : Fin 2) = win6_3.index t (0 : Fin 2) ∧ win6_1.index t (1 : Fin 2) = 0
    ∧ win6_2.index t (0 : Fin 2) = 0 ∧ win6_2.index t (1 : Fin 2) = 0
    ∧ win6_4.index t (0 : Fin 2) = win6_3.index t (0 : Fin 2) ∧ win6_4.index t (1 : Fin 2) = 0
    ∧ win6_3.index t (0 : Fin 2) ≤ 9 ∧ win6_3.index t (1 : Fin 2) = 0 :=
  (by decide +kernel : ∀ t : Fin grid6.N, _)

/-- Every block of rows is some point's, for each output window. -/
theorem idx_onto3 : ∀ q0 : Fin 10, ∃ t : Fin cfg6.N, win6_3.index t = ![q0.val, 0] :=
  (by decide +kernel : ∀ q0 : Fin 10, ∃ t : Fin grid6.N, win6_3.index t = ![q0.val, 0])
theorem idx_onto4 : ∀ q0 : Fin 10, ∃ t : Fin cfg6.N, win6_4.index t = ![q0.val, 0] :=
  (by decide +kernel : ∀ q0 : Fin 10, ∃ t : Fin grid6.N, win6_4.index t = ![q0.val, 0])

/-- relu read through a map of the indices. -/
theorem relu_read (A : S50000x64.Idx → EReal) (e0 e3 : S5000x64.Idx → S50000x64.Idx) (j : S5000x64.Idx) (h0 : e0 j = e3 j) :
    relu (fun y => A (e0 y)) j = relu A (e3 j) := by
  show max (A (e0 j)) _ = max (A (e3 j)) _
  rw [h0]

/-- mix read through maps of the indices. -/
theorem mix_read (H A : S50000x64.Idx → EReal) (T : S1x1.Idx → EReal) (e0 e1 e4 : S5000x64.Idx → S50000x64.Idx) (e2 : S1x1.Idx → S1x1.Idx)
    (j : S5000x64.Idx) (h0 : e0 j = e4 j) (h1 : e1 j = e4 j) (h2 : e2 (ix2 (0 : Fin 1) (0 : Fin 1)) = ix2 (0 : Fin 1) (0 : Fin 1)) :
    mix (fun y => H (e1 y)) (fun y => A (e0 y)) (T (e2 (ix2 (0 : Fin 1) (0 : Fin 1)))) j = mix H A (T (ix2 (0 : Fin 1) (0 : Fin 1))) (e4 j) := by
  show H (e1 j) + max (A (e0 j)) _ * T (e2 _) = H (e4 j) + max (A (e4 j)) _ * T _
  rw [h0, h1, h2]

/-- What point t writes back through window 3 is block t of relu of the aggregate. -/
theorem flushed_eq3 (c : Dev nD) (t : Fin cfg6.N) :
    (dat6 (F := Ideal) V c).flushed 3 t = ((cfg6.win 3).blk t).view.read (Elt Ideal) (Gcur V c) := by
  show (cfg6.win 3).cut (grid6.coords t) ((dat6 V c).after 3 t) = _
  rw [after6_3]
  unfold out6_3
  rw [View.canon_unit_zero hz]
  simp only [View.ld_unit_zero (S := S5000x64) hz]
  rw [k6_pay1_eq]
  obtain ⟨e0, e1, e2, e3, e4, e5, e6, e7, e8, e9⟩ := idx_facts t
  funext j
  have hj0 : (j 0).val < 5000 := (j 0).isLt
  have hj1 : (j 1).val < 64 := (j 1).isLt
  refine relu_read (V c main_v70) (fun y => ((cfg6.win 0).blk t).view.emb y) (fun y => ((cfg6.win 3).blk t).view.emb y) j ?_
  · funext a; apply Fin.ext
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 64 + 1 * (j 1).val = win6_3.index t (1 : Fin 2) * 64 + 1 * (j 1).val; omega

/-- What point t writes back through window 4 is block t of the carried sum plus relu times the coefficient. -/
theorem flushed_eq4 (c : Dev nD) (t : Fin cfg6.N) :
    (dat6 (F := Ideal) V c).flushed 4 t = ((cfg6.win 4).blk t).view.read (Elt Ideal) (Ghid V c) := by
  show (cfg6.win 4).cut (grid6.coords t) ((dat6 V c).after 4 t) = _
  rw [after6_4]
  unfold out6_4
  rw [View.canon_unit_zero hz]
  simp only [View.ld_unit_zero (S := S5000x64) hz, View.ld_unit_zero (S := S1x1) hz]
  rw [k6_pay2_eq]
  obtain ⟨e0, e1, e2, e3, e4, e5, e6, e7, e8, e9⟩ := idx_facts t
  funext j
  have hj0 : (j 0).val < 5000 := (j 0).isLt
  have hj1 : (j 1).val < 64 := (j 1).isLt
  refine mix_read (V c main_v51_1) (V c main_v70) (V c main_v72) (fun y => ((cfg6.win 0).blk t).view.emb y) (fun y => ((cfg6.win 1).blk t).view.emb y)
    (fun y => ((cfg6.win 4).blk t).view.emb y) (fun y => ((cfg6.win 2).blk t).view.emb y) j ?_ ?_ ?_
  · funext a; apply Fin.ext
    match a with
    | ⟨0, _⟩ => show win6_0.index t (0 : Fin 2) * 5000 + 1 * (j 0).val = win6_4.index t (0 : Fin 2) * 5000 + 1 * (j 0).val; omega
    | ⟨1, _⟩ => show win6_0.index t (1 : Fin 2) * 64 + 1 * (j 1).val = win6_4.index t (1 : Fin 2) * 64 + 1 * (j 1).val; omega
  · funext a; apply Fin.ext
    match a with
    | ⟨0, _⟩ => show win6_1.index t (0 : Fin 2) * 5000 + 1 * (j 0).val = win6_4.index t (0 : Fin 2) * 5000 + 1 * (j 0).val; omega
    | ⟨1, _⟩ => show win6_1.index t (1 : Fin 2) * 64 + 1 * (j 1).val = win6_4.index t (1 : Fin 2) * 64 + 1 * (j 1).val; omega
  · funext a; apply Fin.ext
    match a with
    | ⟨0, _⟩ => show win6_2.index t (0 : Fin 2) * 1 + 1 * 0 = 0; omega
    | ⟨1, _⟩ => show win6_2.index t (1 : Fin 2) * 1 + 1 * 0 = 0; omega

/-- An index of the array is in point t's block of window 3 iff each coordinate is in the block's range on its axis. -/
theorem mem_blk3 (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v73_0).slice (win6_3.rect t)).set ↔ _
  rw [View.set_slice_whole, Rect.mem_set_unit]
  exact Iff.rfl

/-- Every index of the array is in some point's block of window 3: row r is in block r / 5000. -/
theorem cover3 (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  obtain ⟨t, ht⟩ := idx_onto3 ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_blk3]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- Output window 3's array after the region. -/
theorem final3 (c : Dev nD) : (dat6 (F := Ideal) V c).arrAt 3 cfg6.N = Gcur V c :=
  (dat6 (F := Ideal) V c).arrAt_eq_of_cover 3 (Gcur V c) (fun t _ => flushed_eq3 V c t) (fun i => cover3 i)

/-- An index of the array is in point t's block of window 4 iff each coordinate is in the block's range on its axis. -/
theorem mem_blk4 (t : Fin cfg6.N) (i : S50000x64.Idx) :
    i ∈ ((cfg6.win 4).blk t).view.set ↔ ∀ a : Fin 2, win6_4.index t a * S5000x64.size a ≤ (i a).val ∧ (i a).val < win6_4.index t a * S5000x64.size a + S5000x64.size a := by
  show i ∈ ((View.whole main_v73_1).slice (win6_4.rect t)).set ↔ _
  rw [View.set_slice_whole, Rect.mem_set_unit]
  exact Iff.rfl

/-- Every index of the array is in some point's block of window 4: row r is in block r / 5000. -/
theorem cover4 (i : S50000x64.Idx) : ∃ t : Fin cfg6.N, (cfg6.win 4).flush t = true ∧ i ∈ ((cfg6.win 4).blk t).view.set := by
  have hi0 : (i 0).val < 50000 := (i 0).isLt
  have hi1 : (i 1).val < 64 := (i 1).isLt
  obtain ⟨t, ht⟩ := idx_onto4 ⟨(i 0).val / 5000, by omega⟩
  have q0 : win6_4.index t (0 : Fin 2) = (i 0).val / 5000 := congrFun ht 0
  have q1 : win6_4.index t (1 : Fin 2) = 0 := congrFun ht 1
  refine ⟨t, flush6_4 t, ?_⟩
  rw [mem_blk4]
  intro a
  match a with
  | ⟨0, _⟩ => show win6_4.index t (0 : Fin 2) * 5000 ≤ (i 0).val ∧ (i 0).val < win6_4.index t (0 : Fin 2) * 5000 + 5000; omega
  | ⟨1, _⟩ => show win6_4.index t (1 : Fin 2) * 64 ≤ (i 1).val ∧ (i 1).val < win6_4.index t (1 : Fin 2) * 64 + 64; omega

/-- Output window 4's array after the region. -/
theorem final4 (c : Dev nD) : (dat6 (F := Ideal) V c).arrAt 4 cfg6.N = Ghid V c :=
  (dat6 (F := Ideal) V c).arrAt_eq_of_cover 4 (Ghid V c) (fun t _ => flushed_eq4 V c t) (fun i => cover4 i)

/-- The same with the arrays the region found given by name. -/
theorem final3_of (c : Dev nD) (A : S50000x64.Idx → EReal) (hA : V c main_v70 = A) :
    (dat6 (F := Ideal) V c).arrAt 3 cfg6.N = relu A := by
  subst hA; exact final3 V c
theorem final4_of (c : Dev nD) (H A : S50000x64.Idx → EReal) (T : S1x1.Idx → EReal) (hH : V c main_v51_1 = H) (hA : V c main_v70 = A) (hT : V c main_v72 = T) :
    (dat6 (F := Ideal) V c).arrAt 4 cfg6.N = mix H A (T (ix2 (0 : Fin 1) (0 : Fin 1))) := by
  subst hH; subst hA; subst hT; exact final4 V c

end Cert.Region6

end
-- ==== Proof.Region7.lean ====
/-
  What region 7 (a block of rows times a weight matrix, plus a bias row) leaves in its output array, for any
  contents `V` of the buffers when the region is entered: the whole product plus bias, `shift (prod X W) B` of the three
  arrays it reads.  Grid point t handles rows 5000·t … 5000·t + 4999: its input block is those rows of X, the weights
  and the bias row are read whole, and what it writes back is those rows of the result (a block of rows of a product is
  the product of the block of rows, LibRowBlocks.lean); the ten blocks tile the 50000 rows.
-/
import proofs.«162737_j31078383353907_1_alg».proof.Proof.Gen.KernelIdeal.Frame
import proofs.«162737_j31078383353907_1_alg».proof.Proof.Payloads

set_option maxRecDepth 16384

noncomputable section

namespace Cert.Region7

open Idealize.ShloMosaic Idealize.ShloMosaic.TcCoe Idealize.ShloMosaic.ValueIdx Idealize.SL.Sem
open Idealize.ShloMosaic.Pipeline (Dat Cfg Window)
open Cert.Dense Cert.RowBlocks Cert.Gpr Cert.Payloads Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the arrays it reads. -/
abbrev G (c : Dev nD) : S50000x64.Idx → EReal :=
  shift (prod (V c main_v73_1 : S50000x64.Idx → EReal) (V c main_arg7 : S64x64.Idx → EReal)) (V c main_v74 : S1x64.Idx → EReal)

/-- The printed index maps over the grid: the input block moves with the output block along the rows, the weights and
    the bias row stay at block (0, 0), and the output's row block is below 10. -/
theorem idx_facts : ∀ t : Fin cfg7.N,
    win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) ≤ 9 ∧ win7_3.index t (1 : Fin 2) = 0 :=
  (by decide +kernel : ∀ t : Fin grid7.N, _)

/-- Every block of rows is some point's. -/
theorem idx_onto : ∀ q0 : Fin 10, ∃ t : Fin cfg7.N, win7_3.index t = ![q0.val, 0] :=
  (by decide +kernel : ∀ q0 : Fin 10, ∃ t : Fin grid7.N, win7_3.index t = ![q0.val, 0])

/-- Rows n·5000 … of the product plus bias, from maps of the indices that read those rows of X and all of W and B. -/
theorem block_read (X : S50000x64.Idx → EReal) (W : S64x64.Idx → EReal) (B : S1x64.Idx → EReal)
    (e0 : S5000x64.Idx → S50000x64.Idx) (e1 : S64x64.Idx → S64x64.Idx) (e2 : S1x64.Idx → S1x64.Idx)
    (e3 : S5000x64.Idx → S50000x64.Idx) (j : S5000x64.Idx)
    (hX : ∀ k : Fin 64, e0 (ix2 (j 0 : Fin 5000) k) = ix2 ((e3 j) 0 : Fin 50000) k)
    (hW : ∀ k : Fin 64, e1 (ix2 k (j 1 : Fin 64)) = ix2 k ((e3 j) 1 : Fin 64))
    (hB : e2 (ix2 (0 : Fin 1) (j 1 : Fin 64)) = ix2 (0 : Fin 1) ((e3 j) 1 : Fin 64)) :
    shift (prod (fun y => X (e0 y)) (fun y => W (e1 y))) (fun y => B (e2 y)) j = shift (prod X W) B (e3 j) :=
  shift_reindex _ (prod X W) B e2 j (e3 j) (prod_reindex X W e0 e1 j (e3 j) hX hW) hB

/-- What point t writes back is block t of the result. -/
theorem flushed_eq (c : Dev nD) (t : Fin cfg7.N) :
    (dat7 (F := Ideal) V c).flushed 3 t = ((cfg7.win 3).blk t).view.read (Elt Ideal) (G V c) := by
  show (cfg7.win 3).cut (grid7.coords t) ((dat7 V c).after 3 t) = _
  rw [after7_3]
  unfold out7_3
  rw [View.canon_unit_zero hz]
  simp only [View.ld_unit_zero (S := S5000x64) hz, View.ld_unit_zero (S := S64x64) hz, View.ld_unit_zero (S := S1x64) hz]
  rw [k7_pay1_eq]
  obtain ⟨e0, e1, e2, e3, e4, e5, e6, e7⟩ := idx_facts t
  funext j
  have hj0 : (j 0).val < 5000 := (j 0).isLt
  have hj1 : (j 1).val < 64 := (j 1).isLt
  refine block_read (V c main_v73_1) (V c main_arg7) (V c main_v74)
    (fun y => ((cfg7.win 0).blk t).view.emb y) (fun y => ((cfg7.win 1).blk t).view.emb y)
    (fun y => ((cfg7.win 2).blk t).view.emb y) (fun y => ((cfg7.win 3).blk t).view.emb y) j ?_ ?_ ?_
  · intro k
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * k.val = k.val; omega
  · intro k
    funext a; apply Fin.ext
    match a with
    | ⟨0, _⟩ => show win7_1.index t (0 : Fin 2) * 64 + 1 * k.val = k.val; omega
    | ⟨1, _⟩ => show win7_1.index t (1 : Fin 2) * 64 + 1 * (j 1).val = win7_3.index t (1 : Fin 2) * 64 + 1 * (j 1).val; omega
  · funext a; apply Fin.ext
    match a with
    | ⟨0, _⟩ => show win7_2.index t (0 : Fin 2) * 1 + 1 * 0 = 0; omega
    | ⟨1, _⟩ => show win7_2.index t (1 : Fin 2) * 64 + 1 * (j 1).val = win7_3.index t (1 : Fin 2) * 64 + 1 * (j 1).val; omega

/-- An index of the array is in point t's block iff each coordinate is in the block's range on its axis. -/
theorem mem_blk (t : Fin cfg7.N) (i : S50000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v75).slice (win7_3.rect t)).set ↔ _
  rw [View.set_slice_whole, Rect.mem_set_unit]
  exact Iff.rfl

/-- Every index of the array is in some point's block: row r is in block r / 5000. -/
theorem cover (i : S50000x64.Idx) : ∃ t : Fin cfg7.N, (cfg7.win 3).flush t = true ∧ i ∈ ((cfg7.win 3).blk t).view.set := by
  have hi0 : (i 0).val < 50000 := (i 0).isLt
  have hi1 : (i 1).val < 64 := (i 1).isLt
  obtain ⟨t, ht⟩ := idx_onto ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- The output array after the region is the product plus bias of the arrays the region found. -/
theorem final (c : Dev nD) : (dat7 (F := Ideal) V c).arrAt 3 cfg7.N = G V c :=
  (dat7 (F := Ideal) V c).arrAt_eq_of_cover 3 (G V c) (fun t _ => flushed_eq V c t) (fun i => cover i)

/-- The same with the arrays the region found given by name. -/
theorem final_of (c : Dev nD) (X : S50000x64.Idx → EReal) (W : S64x64.Idx → EReal) (B : S1x64.Idx → EReal)
    (hX : V c main_v73_1 = X) (hW : V c main_arg7 = W) (hB : V c main_v74 = B) :
    (dat7 (F := Ideal) V c).arrAt 3 cfg7.N = shift (prod X W) B := by
  subst hX; subst hW; subst hB; exact final V c

end Cert.Region7

end
-- ==== Proof.Chain.lean ====
/-
  The buffers of the idealized kernel's program followed through @main: what each region and each stretch of host
  operations leaves, from the launch memory to the result.

  `W k` is the contents of the buffers after the first k of @main's sixteen segments.  A stretch of host operations
  computes its results from the buffers before it; a region's output arrays hold what the region modules say, as a
  function of the arrays it found; everything else is carried over.  Read in order this gives, buffer by buffer, the
  matrices of KernelNet.lean: h and h·t0 after region 0; per layer the linear map z of the current activations, its
  aggregate a, relu a and the carried sum plus relu a · t; and after region 7 the read-out.  So the result buffer ends
  holding the network of Spec.lean at the kernel's readings of its operands.
-/
import proofs.«162737_j31078383353907_1_alg».proof.Proof.Keep
import proofs.«162737_j31078383353907_1_alg».proof.Proof.KernelNet
import proofs.«162737_j31078383353907_1_alg».proof.Proof.Region0
import proofs.«162737_j31078383353907_1_alg».proof.Proof.Region1
import proofs.«162737_j31078383353907_1_alg».proof.Proof.Region2
import proofs.«162737_j31078383353907_1_alg».proof.Proof.Region3
import proofs.«162737_j31078383353907_1_alg».proof.Proof.Region4
import proofs.«162737_j31078383353907_1_alg».proof.Proof.Region5
import proofs.«162737_j31078383353907_1_alg».proof.Proof.Region6
import proofs.«162737_j31078383353907_1_alg».proof.Proof.Region7

set_option maxRecDepth 16384

noncomputable section

namespace Cert.Chain

open Idealize.ShloMosaic Idealize.ShloMosaic.TcCoe Idealize.ShloMosaic.Tactic Idealize.ShloMosaic.ValueIdx Idealize.SL.Sem
open Idealize.ShloMosaic.StableHlo
open Cert.Dense Cert.Gpr Cert.KernelNet Cert.Keep Cert.KernelIdeal Cert.KernelIdeal.Gen

variable (m : (ℓ : Loc nD τ sig) → Buf (Elt Ideal) ℓ) (ρ : Dev nD → PrngReg) (c : Dev nD)

set_option quotPrecheck false

local notation "a0" => (m ((c : Thread nD τ).loc main_arg0) : S50000x256.Idx → EReal)
local notation "a1" => (m ((c : Thread nD τ).loc main_arg1) : S2x800000.Idx → BitVec 32)
local notation "a2" => (m ((c : Thread nD τ).loc main_arg2) : S800000.Idx → EReal)
local notation "a3" => (m ((c : Thread nD τ).loc main_arg3) : S256x64.Idx → EReal)
local notation "a4" => (m ((c : Thread nD τ).loc main_arg4) : S64.Idx → EReal)
local notation "a5" => (m ((c : Thread nD τ).loc main_arg5) : S3x64x64.Idx → EReal)
local notation "a6" => (m ((c : Thread nD τ).loc main_arg6) : S3x64.Idx → EReal)
local notation "a7" => (m ((c : Thread nD τ).loc main_arg7) : S64x64.Idx → EReal)
local notation "a8" => (m ((c : Thread nD τ).loc main_arg8) : S64.Idx → EReal)
local notation "a9" => (m ((c : Thread nD τ).loc main_arg9) : S4.Idx → EReal)
local notation "vH" => mH a0 a3 a4
local notation "vHid0" => mHid0 a0 a3 a4 a9
local notation "vZ1" => mZ1 a0 a3 a4 a5 a6
local notation "vA1" => mA1 a0 a1 a2 a3 a4 a5 a6
local notation "vHid1" => mHid1 a0 a1 a2 a3 a4 a5 a6 a9
local notation "vZ2" => mZ2 a0 a1 a2 a3 a4 a5 a6
local notation "vA2" => mA2 a0 a1 a2 a3 a4 a5 a6
local notation "vHid2" => mHid2 a0 a1 a2 a3 a4 a5 a6 a9
local notation "vZ3" => mZ3 a0 a1 a2 a3 a4 a5 a6
local notation "vA3" => mA3 a0 a1 a2 a3 a4 a5 a6
local notation "vHid3" => mHid3 a0 a1 a2 a3 a4 a5 a6 a9
local notation "vOut" => mOut a0 a1 a2 a3 a4 a5 a6 a7 a8 a9

/-! ### The first stretch: the small operands of region 0 and the two rows of the edge table -/

theorem w1_v6 : W1 m ρ c (Proc.devRef .tc main_v6) = rowK a4 := by
  show StableHlo.after hostOps0 (W0 m ρ c) (Proc.devRef .tc main_v6) = _
  after_results
  rfl

theorem w1_v5 : W1 m ρ c (Proc.devRef .tc main_v5) = t0K a9 := by
  show StableHlo.after hostOps0 (W0 m ρ c) (Proc.devRef .tc main_v5) = _
  after_results
  rfl

theorem w1_v1 : W1 m ρ c (Proc.devRef .tc main_v1) = srcK a1 := by
  show StableHlo.after hostOps0 (W0 m ρ c) (Proc.devRef .tc main_v1) = _
  after_results
  rfl

theorem w1_v3 : W1 m ρ c (Proc.devRef .tc main_v3) = dstK a1 := by
  show StableHlo.after hostOps0 (W0 m ρ c) (Proc.devRef .tc main_v3) = _
  after_results
  rfl

/-! ### Region 0 -/

theorem w2_cur : W2 m ρ c (Proc.devRef .tc main_v7_0) = vH :=
  (W2_arr m ρ c 4).trans (Cert.Region0.final4_of (V1 m ρ) c _ _ _ (w1_arg0 m ρ c) (w1_arg3 m ρ c) (w1_v6 m ρ c))

theorem w2_hid : W2 m ρ c (Proc.devRef .tc main_v7_1) = vHid0 :=
  (W2_arr m ρ c 5).trans (Cert.Region0.final5_of (V1 m ρ) c _ _ _ _ (w1_arg0 m ρ c) (w1_arg3 m ρ c) (w1_v6 m ρ c) (w1_v5 m ρ c))

/-! ### Layer 1: the stretch before region 1, region 1, the stretch before region 2, region 2 -/

theorem w3_w : W3 m ρ c (Proc.devRef .tc main_v9) = w1K a5 := by
  have e : W3 m ρ c (Proc.devRef .tc main_v9) = w1K (W2 m ρ c (Proc.devRef .tc main_arg5)) := by
    show StableHlo.after hostOps1 (W2 m ρ c) (Proc.devRef .tc main_v9) = _
    after_results
    rfl
  rw [e, at2 m ρ c _ tr_arg5, w1_arg5]

theorem w3_b : W3 m ρ c (Proc.devRef .tc main_v12) = b1K a6 := by
  have e : W3 m ρ c (Proc.devRef .tc main_v12) = b1K (W2 m ρ c (Proc.devRef .tc main_arg6)) := by
    show StableHlo.after hostOps1 (W2 m ρ c) (Proc.devRef .tc main_v12) = _
    after_results
    rfl
  rw [e, at2 m ρ c _ tr_arg6, w1_arg6]

theorem w3_cur : W3 m ρ c (Proc.devRef .tc main_v7_0) = vH :=
  (show W3 m ρ c (Proc.devRef .tc main_v7_0) = W2 m ρ c (Proc.devRef .tc main_v7_0) by host_keeps hostOps1).trans (w2_cur m ρ c)

theorem w4_z : W4 m ρ c (Proc.devRef .tc main_v13) = vZ1 :=
  (W4_arr m ρ c 3).trans (Cert.Region1.final_of (V3 m ρ) c _ _ _ (w3_cur m ρ c) (w3_w m ρ c) (w3_b m ρ c))

theorem w5_agg : W5 m ρ c (Proc.devRef .tc main_v26) = vA1 := by
  have e : W5 m ρ c (Proc.devRef .tc main_v26)
      = aggK (W4 m ρ c (Proc.devRef .tc main_v1)) (W4 m ρ c (Proc.devRef .tc main_v3)) (W4 m ρ c (Proc.devRef .tc main_arg2)) (W4 m ρ c (Proc.devRef .tc main_v13)) := by
    show StableHlo.after hostOps2 (W4 m ρ c) (Proc.devRef .tc main_v26) = _
    after_results_simp
    rfl
  rw [e, at4 m ρ c _ tr_v1, at4 m ρ c _ tr_v3, at4 m ρ c _ tr_arg2, w1_v1, w1_v3, w1_arg2, w4_z]
  rfl

theorem w5_t : W5 m ρ c (Proc.devRef .tc main_v28) = t1K a9 := by
  have e : W5 m ρ c (Proc.devRef .tc main_v28) = t1K (W4 m ρ c (Proc.devRef .tc main_arg9)) := by
    show StableHlo.after hostOps2 (W4 m ρ c) (Proc.devRef .tc main_v28) = _
    after_results
    rfl
  rw [e, at4 m ρ c _ tr_arg9, w1_arg9]

theorem w5_hid : W5 m ρ c (Proc.devRef .tc main_v7_1) = vHid0 :=
  (show W5 m ρ c (Proc.devRef .tc main_v7_1) = W4 m ρ c (Proc.devRef .tc main_v7_1) by host_keeps hostOps2).trans
    ((W4_of_ne m ρ c main_v7_1 (by decide)).trans
      ((show W3 m ρ c (Proc.devRef .tc main_v7_1) = W2 m ρ c (Proc.devRef .tc main_v7_1) by host_keeps hostOps1).trans (w2_hid m ρ c)))

theorem w6_cur : W6 m ρ c (Proc.devRef .tc main_v29_0) = relu vA1 :=
  (W6_arr m ρ c 3).trans (Cert.Region2.final3_of (V5 m ρ) c _ (w5_agg m ρ c))

theorem w6_hid : W6 m ρ c (Proc.devRef .tc main_v29_1) = vHid1 :=
  (W6_arr m ρ c 4).trans (Cert.Region2.final4_of (V5 m ρ) c _ _ _ (w5_hid m ρ c) (w5_agg m ρ c) (w5_t m ρ c))

/-! ### Layer 2: the stretch before region 3, region 3, the stretch before region 4, region 4 -/

theorem w7_w : W7 m ρ c (Proc.devRef .tc main_v31) = w2K a5 := by
  have e : W7 m ρ c (Proc.devRef .tc main_v31) = w2K (W6 m ρ c (Proc.devRef .tc main_arg5)) := by
    show StableHlo.after hostOps3 (W6 m ρ c) (Proc.devRef .tc main_v31) = _
    after_results
    rfl
  rw [e, at6 m ρ c _ tr_arg5, w1_arg5]

theorem w7_b : W7 m ρ c (Proc.devRef .tc main_v34) = b2K a6 := by
  have e : W7 m ρ c (Proc.devRef .tc main_v34) = b2K (W6 m ρ c (Proc.devRef .tc main_arg6)) := by
    show StableHlo.after hostOps3 (W6 m ρ c) (Proc.devRef .tc main_v34) = _
    after_results
    rfl
  rw [e, at6 m ρ c _ tr_arg6, w1_arg6]

theorem w7_cur : W7 m ρ c (Proc.devRef .tc main_v29_0) = relu vA1 :=
  (show W7 m ρ c (Proc.devRef .tc main_v29_0) = W6 m ρ c (Proc.devRef .tc main_v29_0) by host_keeps hostOps3).trans (w6_cur m ρ c)

theorem w8_z : W8 m ρ c (Proc.devRef .tc main_v35) = vZ2 :=
  (W8_arr m ρ c 3).trans (Cert.Region3.final_of (V7 m ρ) c _ _ _ (w7_cur m ρ c) (w7_w m ρ c) (w7_b m ρ c))

theorem w9_agg : W9 m ρ c (Proc.devRef .tc main_v48) = vA2 := by
  have e : W9 m ρ c (Proc.devRef .tc main_v48)
      = aggK (W8 m ρ c (Proc.devRef .tc main_v1)) (W8 m ρ c (Proc.devRef .tc main_v3)) (W8 m ρ c (Proc.devRef .tc main_arg2)) (W8 m ρ c (Proc.devRef .tc main_v35)) := by
    show StableHlo.after hostOps4 (W8 m ρ c) (Proc.devRef .tc main_v48) = _
    after_results_simp
    rfl
  rw [e, at8 m ρ c _ tr_v1, at8 m ρ c _ tr_v3, at8 m ρ c _ tr_arg2, w1_v1, w1_v3, w1_arg2, w8_z]
  rfl

theorem w9_t : W9 m ρ c (Proc.devRef .tc main_v50) = t2K a9 := by
  have e : W9 m ρ c (Proc.devRef .tc main_v50) = t2K (W8 m ρ c (Proc.devRef .tc main_arg9)) := by
    show StableHlo.after hostOps4 (W8 m ρ c) (Proc.devRef .tc main_v50) = _
    after_results
    rfl
  rw [e, at8 m ρ c _ tr_arg9, w1_arg9]

theorem w9_hid : W9 m ρ c (Proc.devRef .tc main_v29_1) = vHid1 :=
  (show W9 m ρ c (Proc.devRef .tc main_v29_1) = W8 m ρ c (Proc.devRef .tc main_v29_1) by host_keeps hostOps4).trans
    ((W8_of_ne m ρ c main_v29_1 (by decide)).trans
      ((show W7 m ρ c (Proc.devRef .tc main_v29_1) = W6 m ρ c (Proc.devRef .tc main_v29_1) by host_keeps hostOps3).trans (w6_hid m ρ c)))

theorem w10_cur : W10 m ρ c (Proc.devRef .tc main_v51_0) = relu vA2 :=
  (W10_arr m ρ c 3).trans (Cert.Region4.final3_of (V9 m ρ) c _ (w9_agg m ρ c))

theorem w10_hid : W10 m ρ c (Proc.devRef .tc main_v51_1) = vHid2 :=
  (W10_arr m ρ c 4).trans (Cert.Region4.final4_of (V9 m ρ) c _ _ _ (w9_hid m ρ c) (w9_agg m ρ c) (w9_t m ρ c))

/-! ### Layer 3: the stretch before region 5, region 5, the stretch before region 6, region 6 -/

theorem w11_w : W11 m ρ c (Proc.devRef .tc main_v53) = w3K a5 := by
  have e : W11 m ρ c (Proc.devRef .tc main_v53) = w3K (W10 m ρ c (Proc.devRef .tc main_arg5)) := by
    show StableHlo.after hostOps5 (W10 m ρ c) (Proc.devRef .tc main_v53) = _
    after_results
    rfl
  rw [e, at10 m ρ c _ tr_arg5, w1_arg5]

theorem w11_b : W11 m ρ c (Proc.devRef .tc main_v56) = b3K a6 := by
  have e : W11 m ρ c (Proc.devRef .tc main_v56) = b3K (W10 m ρ c (Proc.devRef .tc main_arg6)) := by
    show StableHlo.after hostOps5 (W10 m ρ c) (Proc.devRef .tc main_v56) = _
    after_results
    rfl
  rw [e, at10 m ρ c _ tr_arg6, w1_arg6]

theorem w11_cur : W11 m ρ c (Proc.devRef .tc main_v51_0) = relu vA2 :=
  (show W11 m ρ c (Proc.devRef .tc main_v51_0) = W10 m ρ c (Proc.devRef .tc main_v51_0) by host_keeps hostOps5).trans (w10_cur m ρ c)

theorem w12_z : W12 m ρ c (Proc.devRef .tc main_v57) = vZ3 :=
  (W12_arr m ρ c 3).trans (Cert.Region5.final_of (V11 m ρ) c _ _ _ (w11_cur m ρ c) (w11_w m ρ c) (w11_b m ρ c))

theorem w13_agg : W13 m ρ c (Proc.devRef .tc main_v70) = vA3 := by
  have e : W13 m ρ c (Proc.devRef .tc main_v70)
      = aggK (W12 m ρ c (Proc.devRef .tc main_v1)) (W12 m ρ c (Proc.devRef .tc main_v3)) (W12 m ρ c (Proc.devRef .tc main_arg2)) (W12 m ρ c (Proc.devRef .tc main_v57)) := by
    show StableHlo.after hostOps6 (W12 m ρ c) (Proc.devRef .tc main_v70) = _
    after_results_simp
    rfl
  rw [e, at12 m ρ c _ tr_v1, at12 m ρ c _ tr_v3, at12 m ρ c _ tr_arg2, w1_v1, w1_v3, w1_arg2, w12_z]
  rfl

theorem w13_t : W13 m ρ c (Proc.devRef .tc main_v72) = t3K a9 := by
  have e : W13 m ρ c (Proc.devRef .tc main_v72) = t3K (W12 m ρ c (Proc.devRef .tc main_arg9)) := by
    show StableHlo.after hostOps6 (W12 m ρ c) (Proc.devRef .tc main_v72) = _
    after_results
    rfl
  rw [e, at12 m ρ c _ tr_arg9, w1_arg9]

theorem w13_hid : W13 m ρ c (Proc.devRef .tc main_v51_1) = vHid2 :=
  (show W13 m ρ c (Proc.devRef .tc main_v51_1) = W12 m ρ c (Proc.devRef .tc main_v51_1) by host_keeps hostOps6).trans
    ((W12_of_ne m ρ c main_v51_1 (by decide)).trans
      ((show W11 m ρ c (Proc.devRef .tc main_v51_1) = W10 m ρ c (Proc.devRef .tc main_v51_1) by host_keeps hostOps5).trans (w10_hid m ρ c)))

theorem w14_cur : W14 m ρ c (Proc.devRef .tc main_v73_0) = relu vA3 :=
  (W14_arr m ρ c 3).trans (Cert.Region6.final3_of (V13 m ρ) c _ (w13_agg m ρ c))

theorem w14_hid : W14 m ρ c (Proc.devRef .tc main_v73_1) = vHid3 :=
  (W14_arr m ρ c 4).trans (Cert.Region6.final4_of (V13 m ρ) c _ _ _ (w13_hid m ρ c) (w13_agg m ρ c) (w13_t m ρ c))

/-! ### The last stretch and region 7 -/

theorem w15_b : W15 m ρ c (Proc.devRef .tc main_v74) = rowK a8 := by
  have e : W15 m ρ c (Proc.devRef .tc main_v74) = rowK (W14 m ρ c (Proc.devRef .tc main_arg8)) := by
    show StableHlo.after hostOps7 (W14 m ρ c) (Proc.devRef .tc main_v74) = _
    after_results
    rfl
  rw [e, at14 m ρ c _ tr_arg8, w1_arg8]

theorem w15_hid : W15 m ρ c (Proc.devRef .tc main_v73_1) = vHid3 :=
  (show W15 m ρ c (Proc.devRef .tc main_v73_1) = W14 m ρ c (Proc.devRef .tc main_v73_1) by host_keeps hostOps7).trans (w14_hid m ρ c)

theorem w15_w : W15 m ρ c (Proc.devRef .tc main_arg7) = a7 :=
  (at15 m ρ c _ tr_arg7).trans (w1_arg7 m ρ c)

/-- The result buffer after the last region: the read-out of the carried sum. -/
theorem w16_out : W16 m ρ c (Proc.devRef .tc main_v75) = vOut :=
  (W16_arr m ρ c 3).trans (Cert.Region7.final_of (V15 m ρ) c _ _ _ (w15_hid m ρ c) (w15_w m ρ c) (w15_b m ρ c))

/-- The result buffer ends holding the network at the kernel's readings of its operands. -/
theorem result : W16 m ρ c (Proc.devRef .tc main_v75)
    = net (agg a1 a2) a0 a3 (rowK a4) (w1K a5) (w2K a5) (w3K a5) (b1K a6) (b2K a6) (b3K a6) a7 (rowK a8)
        (t0K a9 (ix2 (0 : Fin 1) (0 : Fin 1))) (t1K a9 (ix2 (0 : Fin 1) (0 : Fin 1)))
        (t2K a9 (ix2 (0 : Fin 1) (0 : Fin 1))) (t3K a9 (ix2 (0 : Fin 1) (0 : Fin 1))) :=
  (w16_out m ρ c).trans (mOut_eq_net a0 a1 a2 a3 a4 a5 a6 a7 a8 a9)

end Cert.Chain

end
-- ==== Proof.RefValue.lean ====
/-
  The reference program's result, as the graph network of Spec.lean.

  The reference computes h = x·W_in + b_in, then three times z = c·W_k + b_k, a = (the aggregation of z along the
  edges), c = max(a, 0), and carries hidden = h·t0 + max(a1, 0)·t1 + max(a2, 0)·t2 + max(a3, 0)·t3, added up in that
  order; its result is hidden·W_out + b_out.  Each dense operation it runs is one of the functions of LibDense.lean and
  Spec.lean on whole arrays: a contraction of the second axis of the left operand with the first of the right is the
  matrix product `prod`; adding a one-row matrix broadcast down the rows is `shift`; the maximum with a broadcast zero
  is `relu`; the product with a broadcast rank-0 array is `scale`; and the carried sum plus such a product of a relu is
  `mix`.  The aggregation is kept as the reference spells it, as one function `aggR` of the matrix it aggregates (and
  of the edge table and the edge weights): the three layers build their wrapped source indices, their broadcast edge
  weights, their zero accumulator and their target indices by the same operations on the same inputs, so all three
  apply this one function.  Composing the stage equations from the result inward gives `ref_eq_net`: the result is
  `net aggR` at the reference's own reading of its weights (the layer weights and bias rows sliced out of their
  stacked arrays, the bias vectors as one-row matrices, the four mixing coefficients as rank-0 arrays).

  Everything is an equality of whole arrays on the extended reals; no entry is read, and no fact about the arithmetic
  of the extended reals is used here beyond what the imported lemmas already state.
-/
import proofs.«162737_j31078383353907_1_alg».proof.Proof.Gen.ReferenceIdeal.Read
import proofs.«162737_j31078383353907_1_alg».proof.Proof.Spec

noncomputable section

namespace Cert.RefValue

open Idealize.ShloMosaic Idealize.ShloMosaic.ValueIdx Cert.Dense Cert.Gpr Cert.ReferenceIdeal Cert.ReferenceIdeal.Read

/-- The aggregation step as the reference spells it: rows of z gathered at the first row of the edge table (a negative
    word wrapped by 50000), each times its edge weight, added up per target node (second row of the edge table) into
    zeros. -/
def aggR (x1 : (⟨S2x800000, .i32⟩ : BufTy).Contents (Elt Ideal)) (x2 : (⟨S800000, .f32⟩ : BufTy).Contents (Elt Ideal)) (z : Mat 50000 64) : Mat 50000 64 :=
  Host.scatterAdd (F := Ideal) (φ := .f32) scatter_S50000x64_S800000x1_S800000x64_1_0_0_1 (val_main_v30 (F := Ideal)) (val_main_v31 (F := Ideal) x1)
    (mulf (F := Ideal) (φ := .f32) (Host.gather gather_S50000x64_S800000x1_S800000x64_1_0_n_n_0_1_164 z (val_main_v25 (F := Ideal) x1))
      (val_main_v28 (F := Ideal) x2))

section Stages

variable (x0 : (⟨S50000x256, .f32⟩ : BufTy).Contents (Elt Ideal)) (x1 : (⟨S2x800000, .i32⟩ : BufTy).Contents (Elt Ideal))
  (x2 : (⟨S800000, .f32⟩ : BufTy).Contents (Elt Ideal)) (x3 : (⟨S256x64, .f32⟩ : BufTy).Contents (Elt Ideal))
  (x4 : (⟨S64, .f32⟩ : BufTy).Contents (Elt Ideal)) (x5 : (⟨S3x64x64, .f32⟩ : BufTy).Contents (Elt Ideal))
  (x6 : (⟨S3x64, .f32⟩ : BufTy).Contents (Elt Ideal)) (x7 : (⟨S64x64, .f32⟩ : BufTy).Contents (Elt Ideal))
  (x8 : (⟨S64, .f32⟩ : BufTy).Contents (Elt Ideal)) (x9 : (⟨S4, .f32⟩ : BufTy).Contents (Elt Ideal))

/-! ## The index and weight stages of layers 2 and 3 are those of layer 1 -/

/-- The wrapped source indices, as a column: layer 2's copy is layer 1's. -/
private theorem src2_eq : val_main_v52 (F := Ideal) x1 = val_main_v25 (F := Ideal) x1 := rfl
/-- … and so is layer 3's. -/
private theorem src3_eq : val_main_v79 (F := Ideal) x1 = val_main_v25 (F := Ideal) x1 := rfl
/-- The edge weights broadcast along the rows: layer 2's copy is layer 1's. -/
private theorem wgt2_eq : val_main_v55 (F := Ideal) x2 = val_main_v28 (F := Ideal) x2 := rfl
/-- … and so is layer 3's. -/
private theorem wgt3_eq : val_main_v82 (F := Ideal) x2 = val_main_v28 (F := Ideal) x2 := rfl
/-- The zero accumulator: layer 2's copy is layer 1's. -/
private theorem zero2_eq : val_main_v57 (F := Ideal) = val_main_v30 (F := Ideal) := rfl
/-- … and so is layer 3's. -/
private theorem zero3_eq : val_main_v84 (F := Ideal) = val_main_v30 (F := Ideal) := rfl
/-- The target indices, as a column: layer 2's copy is layer 1's. -/
private theorem dst2_eq : val_main_v58 (F := Ideal) x1 = val_main_v31 (F := Ideal) x1 := rfl
/-- … and so is layer 3's. -/
private theorem dst3_eq : val_main_v85 (F := Ideal) x1 = val_main_v31 (F := Ideal) x1 := rfl

/-! ## The stages, each as one function of earlier stages -/

/-- h = x·W_in + b_in. -/
private theorem v7_eq : val_main_v7 (F := Ideal) x0 x3 x4 = shift (prod x0 x3) (val_main_v5 (F := Ideal) x4) := by
  unfold val_main_v7 val_main_v4 val_main_v6
  rw [dotGeneral_eq_prod dot_S50000x256_S256x64_S50000x64_1_0_0_1_n_n rfl rfl lhs_main_v4_0 lhs_main_v4_1 rhs_main_v4_0 rhs_main_v4_1]
  exact host_shift _ _ _

/-- The carried sum starts as h·t0. -/
private theorem v11_eq : val_main_v11 (F := Ideal) x0 x3 x4 x9 = scale (val_main_v7 (F := Ideal) x0 x3 x4) (val_main_v9 (F := Ideal) x9 ix0) := by
  unfold val_main_v11 val_main_v10
  exact host_scale _ _ _

/-- z1 = h·W_1 + b_1. -/
private theorem v19_eq : val_main_v19 (F := Ideal) x0 x3 x4 x5 x6 = shift (prod (val_main_v7 (F := Ideal) x0 x3 x4) (val_main_v13 (F := Ideal) x5)) (val_main_v17 (F := Ideal) x6) := by
  unfold val_main_v19 val_main_v14 val_main_v18
  rw [dotGeneral_eq_prod dot_S50000x64_S64x64_S50000x64_1_0_0_1_n_n rfl rfl lhs_main_v14_0 lhs_main_v14_1 rhs_main_v14_0 rhs_main_v14_1]
  exact host_shift _ _ _

/-- a1 is the aggregation of z1. -/
private theorem v32_eq : val_main_v32 (F := Ideal) x0 x1 x2 x3 x4 x5 x6 = aggR x1 x2 (val_main_v19 (F := Ideal) x0 x3 x4 x5 x6) := by
  unfold val_main_v32 val_main_v29 val_main_v26 aggR
  rfl

/-- c1 = max(a1, 0). -/
private theorem v33_eq : val_main_v33 (F := Ideal) x0 x1 x2 x3 x4 x5 x6 = relu (val_main_v32 (F := Ideal) x0 x1 x2 x3 x4 x5 x6) := by
  unfold val_main_v33 val_main_call0_v0 val_main_call0_cst
  exact host_relu _ _

/-- The carried sum after layer 1: h·t0 + max(a1, 0)·t1. -/
private theorem v38_eq : val_main_v38 (F := Ideal) x0 x1 x2 x3 x4 x5 x6 x9 = mix (val_main_v11 (F := Ideal) x0 x3 x4 x9) (val_main_v32 (F := Ideal) x0 x1 x2 x3 x4 x5 x6) (val_main_v35 (F := Ideal) x9 ix0) := by
  unfold val_main_v38 val_main_v37 val_main_v36
  rw [v33_eq]
  exact host_mix _ _ _ _

/-- z2 = c1·W_2 + b_2. -/
private theorem v46_eq : val_main_v46 (F := Ideal) x0 x1 x2 x3 x4 x5 x6 = shift (prod (val_main_v33 (F := Ideal) x0 x1 x2 x3 x4 x5 x6) (val_main_v40 (F := Ideal) x5)) (val_main_v44 (F := Ideal) x6) := by
  unfold val_main_v46 val_main_v41 val_main_v45
  rw [dotGeneral_eq_prod dot_S50000x64_S64x64_S50000x64_1_0_0_1_n_n rfl rfl lhs_main_v41_0 lhs_main_v41_1 rhs_main_v41_0 rhs_main_v41_1]
  exact host_shift _ _ _

/-- a2 is the aggregation of z2. -/
private theorem v59_eq : val_main_v59 (F := Ideal) x0 x1 x2 x3 x4 x5 x6 = aggR x1 x2 (val_main_v46 (F := Ideal) x0 x1 x2 x3 x4 x5 x6) := by
  unfold val_main_v59 val_main_v56 val_main_v53 aggR
  rw [src2_eq, wgt2_eq, zero2_eq, dst2_eq]

/-- c2 = max(a2, 0). -/
private theorem v60_eq : val_main_v60 (F := Ideal) x0 x1 x2 x3 x4 x5 x6 = relu (val_main_v59 (F := Ideal) x0 x1 x2 x3 x4 x5 x6) := by
  unfold val_main_v60 val_main_call1_v0 val_main_call1_cst
  exact host_relu _ _

/-- The carried sum after layer 2. -/
private theorem v65_eq : val_main_v65 (F := Ideal) x0 x1 x2 x3 x4 x5 x6 x9 = mix (val_main_v38 (F := Ideal) x0 x1 x2 x3 x4 x5 x6 x9) (val_main_v59 (F := Ideal) x0 x1 x2 x3 x4 x5 x6) (val_main_v62 (F := Ideal) x9 ix0) := by
  unfold val_main_v65 val_main_v64 val_main_v63
  rw [v60_eq]
  exact host_mix _ _ _ _

/-- z3 = c2·W_3 + b_3. -/
private theorem v73_eq : val_main_v73 (F := Ideal) x0 x1 x2 x3 x4 x5 x6 = shift (prod (val_main_v60 (F := Ideal) x0 x1 x2 x3 x4 x5 x6) (val_main_v67 (F := Ideal) x5)) (val_main_v71 (F := Ideal) x6) := by
  unfold val_main_v73 val_main_v68 val_main_v72
  rw [dotGeneral_eq_prod dot_S50000x64_S64x64_S50000x64_1_0_0_1_n_n rfl rfl lhs_main_v68_0 lhs_main_v68_1 rhs_main_v68_0 rhs_main_v68_1]
  exact host_shift _ _ _

/-- a3 is the aggregation of z3. -/
private theorem v86_eq : val_main_v86 (F := Ideal) x0 x1 x2 x3 x4 x5 x6 = aggR x1 x2 (val_main_v73 (F := Ideal) x0 x1 x2 x3 x4 x5 x6) := by
  unfold val_main_v86 val_main_v83 val_main_v80 aggR
  rw [src3_eq, wgt3_eq, zero3_eq, dst3_eq]

/-- c3 = max(a3, 0). -/
private theorem v87_eq : val_main_v87 (F := Ideal) x0 x1 x2 x3 x4 x5 x6 = relu (val_main_v86 (F := Ideal) x0 x1 x2 x3 x4 x5 x6) := by
  unfold val_main_v87 val_main_call2_v0 val_main_call2_cst
  exact host_relu _ _

/-- The carried sum after layer 3. -/
private theorem v92_eq : val_main_v92 (F := Ideal) x0 x1 x2 x3 x4 x5 x6 x9 = mix (val_main_v65 (F := Ideal) x0 x1 x2 x3 x4 x5 x6 x9) (val_main_v86 (F := Ideal) x0 x1 x2 x3 x4 x5 x6) (val_main_v89 (F := Ideal) x9 ix0) := by
  unfold val_main_v92 val_main_v91 val_main_v90
  rw [v87_eq]
  exact host_mix _ _ _ _

/-- The result: the carried sum times W_out, plus b_out. -/
private theorem v96_eq : val_main_v96 (F := Ideal) x0 x1 x2 x3 x4 x5 x6 x7 x8 x9 = shift (prod (val_main_v92 (F := Ideal) x0 x1 x2 x3 x4 x5 x6 x9) (x7)) (val_main_v94 (F := Ideal) x8) := by
  unfold val_main_v96 val_main_v93 val_main_v95
  rw [dotGeneral_eq_prod dot_S50000x64_S64x64_S50000x64_1_0_0_1_n_n rfl rfl lhs_main_v93_0 lhs_main_v93_1 rhs_main_v93_0 rhs_main_v93_1]
  exact host_shift _ _ _

end Stages

/-- The reference's result is the network of Spec.lean at the reference's own reading of its weights. -/
theorem ref_eq_net (x0 : (⟨S50000x256, .f32⟩ : BufTy).Contents (Elt Ideal)) (x1 : (⟨S2x800000, .i32⟩ : BufTy).Contents (Elt Ideal)) (x2 : (⟨S800000, .f32⟩ : BufTy).Contents (Elt Ideal)) (x3 : (⟨S256x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S64x64, .f32⟩ : BufTy).Contents (Elt Ideal)) (x8 : (⟨S64, .f32⟩ : BufTy).Contents (Elt Ideal)) (x9 : (⟨S4, .f32⟩ : BufTy).Contents (Elt Ideal)) :
    val_main_v96 (F := Ideal) x0 x1 x2 x3 x4 x5 x6 x7 x8 x9
      = net (aggR x1 x2) x0 x3 (val_main_v5 (F := Ideal) x4)
          (val_main_v13 (F := Ideal) x5) (val_main_v40 (F := Ideal) x5) (val_main_v67 (F := Ideal) x5)
          (val_main_v17 (F := Ideal) x6) (val_main_v44 (F := Ideal) x6) (val_main_v71 (F := Ideal) x6)
          x7 (val_main_v94 (F := Ideal) x8)
          (val_main_v9 (F := Ideal) x9 ix0) (val_main_v35 (F := Ideal) x9 ix0) (val_main_v62 (F := Ideal) x9 ix0) (val_main_v89 (F := Ideal) x9 ix0) := by
  unfold net
  rw [v96_eq, v92_eq, v65_eq, v38_eq, v11_eq, v86_eq, v73_eq, v60_eq, v59_eq, v46_eq, v33_eq, v32_eq, v19_eq, v7_eq]

end Cert.RefValue

end
-- ==== Proof.Bridge.lean ====
/-
  The kernel's program and the reference read the same small operands off the argument arrays, in slightly different
  spellings: a bias vector re-cast as one row against the vector broadcast along axis 1 into one row; a coefficient cut
  out of the coefficient vector and re-cast as a [1,1] matrix, read at its one entry, against the same entry re-cast as
  a rank-0 array; the planes of the stacked layer weights and the aggregation step are the same operations letter for
  letter.  So the network at the kernel's readings is the network at the reference's.
-/
import proofs.«162737_j31078383353907_1_alg».proof.Proof.KernelNet
import proofs.«162737_j31078383353907_1_alg».proof.Proof.RefValue

noncomputable section

namespace Cert.Bridge

open Idealize.ShloMosaic Idealize.ShloMosaic.ValueIdx Cert.Dense Cert.Gpr Cert.KernelNet

theorem rowK_eq_v5 (x4 : Cert.KernelIdeal.S64.Idx → EReal) : rowK x4 = Cert.ReferenceIdeal.Read.val_main_v5 (F := Ideal) x4 := by
  unfold rowK Cert.ReferenceIdeal.Read.val_main_v5
  exact row_cast_eq_broadcast _ _ _

theorem rowK_eq_v94 (x8 : Cert.KernelIdeal.S64.Idx → EReal) : rowK x8 = Cert.ReferenceIdeal.Read.val_main_v94 (F := Ideal) x8 := by
  unfold rowK Cert.ReferenceIdeal.Read.val_main_v94
  exact row_cast_eq_broadcast _ _ _

theorem w1K_eq (x5 : Cert.KernelIdeal.S3x64x64.Idx → EReal) : w1K x5 = Cert.ReferenceIdeal.Read.val_main_v13 (F := Ideal) x5 := by
  unfold w1K Cert.ReferenceIdeal.Read.val_main_v13 Cert.ReferenceIdeal.Read.val_main_v12
  rfl
theorem w2K_eq (x5 : Cert.KernelIdeal.S3x64x64.Idx → EReal) : w2K x5 = Cert.ReferenceIdeal.Read.val_main_v40 (F := Ideal) x5 := by
  unfold w2K Cert.ReferenceIdeal.Read.val_main_v40 Cert.ReferenceIdeal.Read.val_main_v39
  rfl
theorem w3K_eq (x5 : Cert.KernelIdeal.S3x64x64.Idx → EReal) : w3K x5 = Cert.ReferenceIdeal.Read.val_main_v67 (F := Ideal) x5 := by
  unfold w3K Cert.ReferenceIdeal.Read.val_main_v67 Cert.ReferenceIdeal.Read.val_main_v66
  rfl

theorem b1K_eq (x6 : Cert.KernelIdeal.S3x64.Idx → EReal) : b1K x6 = Cert.ReferenceIdeal.Read.val_main_v17 (F := Ideal) x6 := by
  unfold b1K Cert.ReferenceIdeal.Read.val_main_v17 Cert.ReferenceIdeal.Read.val_main_v16 Cert.ReferenceIdeal.Read.val_main_v15
  exact row_cast_eq_broadcast _ _ _
theorem b2K_eq (x6 : Cert.KernelIdeal.S3x64.Idx → EReal) : b2K x6 = Cert.ReferenceIdeal.Read.val_main_v44 (F := Ideal) x6 := by
  unfold b2K Cert.ReferenceIdeal.Read.val_main_v44 Cert.ReferenceIdeal.Read.val_main_v43 Cert.ReferenceIdeal.Read.val_main_v42
  exact row_cast_eq_broadcast _ _ _
theorem b3K_eq (x6 : Cert.KernelIdeal.S3x64.Idx → EReal) : b3K x6 = Cert.ReferenceIdeal.Read.val_main_v71 (F := Ideal) x6 := by
  unfold b3K Cert.ReferenceIdeal.Read.val_main_v71 Cert.ReferenceIdeal.Read.val_main_v70 Cert.ReferenceIdeal.Read.val_main_v69
  exact row_cast_eq_broadcast _ _ _

theorem t0K_eq (x9 : Cert.KernelIdeal.S4.Idx → EReal) :
    t0K x9 (ix2 (0 : Fin 1) (0 : Fin 1)) = Cert.ReferenceIdeal.Read.val_main_v9 (F := Ideal) x9 ix0 := by
  unfold t0K Cert.ReferenceIdeal.Read.val_main_v9 Cert.ReferenceIdeal.Read.val_main_v8
  rw [shapeCast_apply _ _ (ix2 (0 : Fin 1) (0 : Fin 1)) (ix1 (0 : Fin 1)) (by rfl), shapeCast_apply _ _ ix0 (ix1 (0 : Fin 1)) (by rfl)]
theorem t1K_eq (x9 : Cert.KernelIdeal.S4.Idx → EReal) :
    t1K x9 (ix2 (0 : Fin 1) (0 : Fin 1)) = Cert.ReferenceIdeal.Read.val_main_v35 (F := Ideal) x9 ix0 := by
  unfold t1K Cert.ReferenceIdeal.Read.val_main_v35 Cert.ReferenceIdeal.Read.val_main_v34
  rw [shapeCast_apply _ _ (ix2 (0 : Fin 1) (0 : Fin 1)) (ix1 (0 : Fin 1)) (by rfl), shapeCast_apply _ _ ix0 (ix1 (0 : Fin 1)) (by rfl)]
theorem t2K_eq (x9 : Cert.KernelIdeal.S4.Idx → EReal) :
    t2K x9 (ix2 (0 : Fin 1) (0 : Fin 1)) = Cert.ReferenceIdeal.Read.val_main_v62 (F := Ideal) x9 ix0 := by
  unfold t2K Cert.ReferenceIdeal.Read.val_main_v62 Cert.ReferenceIdeal.Read.val_main_v61
  rw [shapeCast_apply _ _ (ix2 (0 : Fin 1) (0 : Fin 1)) (ix1 (0 : Fin 1)) (by rfl), shapeCast_apply _ _ ix0 (ix1 (0 : Fin 1)) (by rfl)]
theorem t3K_eq (x9 : Cert.KernelIdeal.S4.Idx → EReal) :
    t3K x9 (ix2 (0 : Fin 1) (0 : Fin 1)) = Cert.ReferenceIdeal.Read.val_main_v89 (F := Ideal) x9 ix0 := by
  unfold t3K Cert.ReferenceIdeal.Read.val_main_v89 Cert.ReferenceIdeal.Read.val_main_v88
  rw [shapeCast_apply _ _ (ix2 (0 : Fin 1) (0 : Fin 1)) (ix1 (0 : Fin 1)) (by rfl), shapeCast_apply _ _ ix0 (ix1 (0 : Fin 1)) (by rfl)]

/-- The aggregation step is spelled with the same operations in both programs. -/
theorem agg_eq (x1 : Cert.KernelIdeal.S2x800000.Idx → BitVec 32) (x2 : Cert.KernelIdeal.S800000.Idx → EReal) :
    agg x1 x2 = Cert.RefValue.aggR x1 x2 := by
  funext z
  unfold agg aggK Cert.RefValue.aggR srcK dstK Cert.ReferenceIdeal.Read.val_main_v30 Cert.ReferenceIdeal.Read.val_main_v31 Cert.ReferenceIdeal.Read.val_main_v25 Cert.ReferenceIdeal.Read.val_main_v28 Cert.ReferenceIdeal.Read.val_main_v27
    Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v3 Cert.ReferenceIdeal.Read.val_main_v2
    Cert.ReferenceIdeal.Read.val_main_v1 Cert.ReferenceIdeal.Read.val_main_v0 Cert.ReferenceIdeal.Read.val_main_cst Cert.ReferenceIdeal.Read.val_main_c Cert.ReferenceIdeal.Read.val_main_c_0
  rfl

/-- The network at the kernel's readings of its operands is the network at the reference's. -/
theorem net_eq (x0 : Mat 50000 256) (x1 : Cert.KernelIdeal.S2x800000.Idx → BitVec 32) (x2 : Cert.KernelIdeal.S800000.Idx → EReal) (x3 : Mat 256 64)
    (x4 : Cert.KernelIdeal.S64.Idx → EReal) (x5 : Cert.KernelIdeal.S3x64x64.Idx → EReal) (x6 : Cert.KernelIdeal.S3x64.Idx → EReal) (x7 : Mat 64 64)
    (x8 : Cert.KernelIdeal.S64.Idx → EReal) (x9 : Cert.KernelIdeal.S4.Idx → EReal) :
    net (agg x1 x2) x0 x3 (rowK x4) (w1K x5) (w2K x5) (w3K x5) (b1K x6) (b2K x6) (b3K x6) x7 (rowK x8)
        (t0K x9 (ix2 (0 : Fin 1) (0 : Fin 1))) (t1K x9 (ix2 (0 : Fin 1) (0 : Fin 1)))
        (t2K x9 (ix2 (0 : Fin 1) (0 : Fin 1))) (t3K x9 (ix2 (0 : Fin 1) (0 : Fin 1)))
      = Cert.ReferenceIdeal.Read.val_main_v96 (F := Ideal) x0 x1 x2 x3 x4 x5 x6 x7 x8 x9 := by
  rw [Cert.RefValue.ref_eq_net, agg_eq, rowK_eq_v5, rowK_eq_v94, w1K_eq, w2K_eq, w3K_eq, b1K_eq, b2K_eq, b3K_eq,
    t0K_eq, t1K_eq, t2K_eq, t3K_eq]

end Cert.Bridge

end
-- ==== Proof.lean ====
/-
  A three-layer generalized-PageRank graph network, computed by eight TPU kernels with host gathers and scatters between
  them, against its plain reference: both compute, on the extended reals, the same function of the ten inputs.

  h = x·W_in + b_in; per layer z = c·W_k + b_k on the current activations c (first h), a = the edge-weighted sum of the
  rows of z over the edges into each node, next c = max(a, 0); the result is
  (((h·t0 + max(a1,0)·t1) + max(a2,0)·t2) + max(a3,0)·t3)·W_out + b_out.
  The kernels work on blocks of 5000 rows; a block of rows of a product, of a bias shift, of max(·, 0) and of the
  entrywise combination is the same operation on the block of rows, and the ten blocks tile the 50000 rows (the region
  modules), so each kernel leaves the whole-matrix operation in its output array.  Rounding the operands of a product
  to bf16 is the identity on the extended reals and the matrix unit's product into a zero accumulator is the plain sum
  over the shared coordinate, as the host's dot_general is.  The gather / multiply / scatter-add between the kernels is
  spelled with the same host operations in both programs and is carried as one function, never opened.  What is left
  are the spellings of the small operands (a bias vector as one row, a coefficient as a [1,1] matrix or a rank-0 array),
  which read the same entries (Bridge.lean).  No law used needs finite inputs: the precondition is not opened.

  The frames of the two kernel programs are the generated ones; the reference's frame is its generated run with the
  result dropped; the ideal pass rewrote nothing, so `preserves` is trivial.
-/
import proofs.«162737_j31078383353907_1_alg».proof.Defs
import proofs.«162737_j31078383353907_1_alg».proof.Proof.Gen.Kernel
import proofs.«162737_j31078383353907_1_alg».proof.Proof.Gen.Kernel.Skeleton
import proofs.«162737_j31078383353907_1_alg».proof.Proof.Gen.Kernel.Launch
import proofs.«162737_j31078383353907_1_alg».proof.Proof.Gen.Kernel.Points
import proofs.«162737_j31078383353907_1_alg».proof.Proof.Gen.Kernel.Frame
import proofs.«162737_j31078383353907_1_alg».proof.Proof.Gen.KernelIdeal
import proofs.«162737_j31078383353907_1_alg».proof.Proof.Gen.KernelIdeal.Skeleton
import proofs.«162737_j31078383353907_1_alg».proof.Proof.Gen.KernelIdeal.Launch
import proofs.«162737_j31078383353907_1_alg».proof.Proof.Gen.KernelIdeal.Points
import proofs.«162737_j31078383353907_1_alg».proof.Proof.Gen.KernelIdeal.Frame
import proofs.«162737_j31078383353907_1_alg».proof.Proof.Gen.ReferenceIdeal
import proofs.«162737_j31078383353907_1_alg».proof.Proof.Gen.ReferenceIdeal.Run
import proofs.«162737_j31078383353907_1_alg».proof.Proof.Gen.ReferenceIdeal.Read
import proofs.«162737_j31078383353907_1_alg».proof.Proof.Gen.Pre_finite_inputs
import proofs.«162737_j31078383353907_1_alg».proof.Proof.KernelRun
import proofs.«162737_j31078383353907_1_alg».proof.Proof.Chain
import proofs.«162737_j31078383353907_1_alg».proof.Proof.RefValue
import proofs.«162737_j31078383353907_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the network of the arguments in their result buffers. -/
theorem algebraic : Cert.algebraic_KernelIdeal_ReferenceIdeal := by
  intro m ρ m' ρ' _ hagree
  refine ⟨fun c => Cert.KernelIdeal.Gen.W16 m ρ c (Proc.devRef .tc Cert.KernelIdeal.main_v75), Cert.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v96_eq, h0, h1, h2, h3, h4, h5, h6, h7, h8, h9]
  exact ((Cert.Chain.result m ρ c).trans (Cert.Bridge.net_eq _ _ _ _ _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
